-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1200000 : Shape := ⟨2, ![2, 1200000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x7 .f32) (main_arg1 : IVec S2x1200000 32) (main_arg2 : IVec S100000 32) (main_arg3 : FVec F S7x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x64 .f32 := Host.absf main_arg3
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x7 : Shape := ⟨2, ![100000, 7]⟩
abbrev S2x1200000 : Shape := ⟨2, ![2, 1200000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S100000x64 : Shape := ⟨2, ![100000, 64]⟩
abbrev S10000x7 : Shape := ⟨2, ![10000, 7]⟩
abbrev S10000x64 : Shape := ⟨2, ![10000, 64]⟩
abbrev S1200000x64 : Shape := ⟨2, ![1200000, 64]⟩
abbrev S1x64 : Shape := ⟨2, ![1, 64]⟩
abbrev S10000x1 : Shape := ⟨2, ![10000, 1]⟩
abbrev S256x64 : Shape := ⟨2, ![256, 64]⟩
abbrev S256 : Shape := ⟨1, ![256]⟩
abbrev S256x1 : Shape := ⟨2, ![256, 1]⟩
abbrev S1x10 : Shape := ⟨2, ![1, 10]⟩
abbrev S256x10 : Shape := ⟨2, ![256, 10]⟩

abbrev nBuf : Space → Nat
  | .hbm => 116
  | .vmem => 47
  | .smem => 0
  | _ => 0

abbrev bufTy : (tb : Table) → Fin (tcTables nBuf tb) → BufTy
  | .hbm, ⟨0, _⟩ => ⟨S100000x7, .f32⟩
  | .hbm, ⟨1, _⟩ => ⟨S2x1200000, .i32⟩
  | .hbm, ⟨2, _⟩ => ⟨S100000, .i32⟩
  | .hbm, ⟨3, _⟩ => ⟨S7x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .f32⟩
  | .hbm, ⟨16, _⟩ => ⟨S1200000, .f32⟩
  | .hbm, ⟨17, _⟩ => ⟨S_, .f32⟩
  | .hbm, ⟨18, _⟩ => ⟨S100000, .f32⟩
  | .hbm, ⟨19, _⟩ => ⟨S1200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000, .f32⟩
  | .hbm, ⟨45, _⟩ => ⟨S1200000, .f32⟩
  | .hbm, ⟨46, _⟩ => ⟨S100000x64, .f32⟩
  | .hbm, ⟨47, _⟩ => ⟨S_, .i32⟩
  | .hbm, ⟨48, _⟩ => ⟨S1200000, .i32⟩
  | .hbm, ⟨49, _⟩ => ⟨S1200000, .i1⟩
  | .hbm, ⟨50, _⟩ => ⟨S_, .i32⟩
  | .hbm, ⟨51, _⟩ => ⟨S1200000, .i32⟩
  | .hbm, ⟨52, _⟩ => ⟨S1200000, .i32⟩
  | .hbm, ⟨53, _⟩ => ⟨S1200000, .i32⟩
  | .hbm, ⟨54, _⟩ => ⟨S1200000x1, .i32⟩
  | .hbm, ⟨55, _⟩ => ⟨S1200000x64, .f32⟩
  | .hbm, ⟨56, _⟩ => ⟨S1200000x1, .f32⟩
  | .hbm, ⟨57, _⟩ => ⟨S1200000x64, .f32⟩
  | .hbm, ⟨58, _⟩ => ⟨S1200000x64, .f32⟩
  | .hbm, ⟨59, _⟩ => ⟨S_, .f32⟩
  | .hbm, ⟨60, _⟩ => ⟨S100000x64, .f32⟩
  | .hbm, ⟨61, _⟩ => ⟨S1200000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1200000, .i32⟩
  | .hbm, ⟨68, _⟩ => ⟨S1200000, .i1⟩
  | .hbm, ⟨69, _⟩ => ⟨S_, .i32⟩
  | .hbm, ⟨70, _⟩ => ⟨S1200000, .i32⟩
  | .hbm, ⟨71, _⟩ => ⟨S1200000, .i32⟩
  | .hbm, ⟨72, _⟩ => ⟨S1200000, .i32⟩
  | .hbm, ⟨73, _⟩ => ⟨S1200000x1, .i32⟩
  | .hbm, ⟨74, _⟩ => ⟨S1200000x64, .f32⟩
  | .hbm, ⟨75, _⟩ => ⟨S1200000x1, .f32⟩
  | .hbm, ⟨76, _⟩ => ⟨S1200000x64, .f32⟩
  | .hbm, ⟨77, _⟩ => ⟨S1200000x64, .f32⟩
  | .hbm, ⟨78, _⟩ => ⟨S_, .f32⟩
  | .hbm, ⟨79, _⟩ => ⟨S100000x64, .f32⟩
  | .hbm, ⟨80, _⟩ => ⟨S1200000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S1200000, .i32⟩
  | .hbm, ⟨87, _⟩ => ⟨S1200000, .i1⟩
  | .hbm, ⟨88, _⟩ => ⟨S_, .i32⟩
  | .hbm, ⟨89, _⟩ => ⟨S1200000, .i32⟩
  | .hbm, ⟨90, _⟩ => ⟨S1200000, .i32⟩
  | .hbm, ⟨91, _⟩ => ⟨S1200000, .i32⟩
  | .hbm, ⟨92, _⟩ => ⟨S1200000x1, .i32⟩
  | .hbm, ⟨93, _⟩ => ⟨S1200000x64, .f32⟩
  | .hbm, ⟨94, _⟩ => ⟨S1200000x1, .f32⟩
  | .hbm, ⟨95, _⟩ => ⟨S1200000x64, .f32⟩
  | .hbm, ⟨96, _⟩ => ⟨S1200000x64, .f32⟩
  | .hbm, ⟨97, _⟩ => ⟨S_, .f32⟩
  | .hbm, ⟨98, _⟩ => ⟨S100000x64, .f32⟩
  | .hbm, ⟨99, _⟩ => ⟨S1200000x1, .i32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S_, .f32⟩
  | .hbm, ⟨104, _⟩ => ⟨S256x64, .f32⟩
  | .hbm, ⟨105, _⟩ => ⟨S100000x1, .i32⟩
  | .hbm, ⟨106, _⟩ => ⟨S256x64, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S256, .f32⟩
  | .hbm, ⟨111, _⟩ => ⟨S100000x1, .i32⟩
  | .hbm, ⟨112, _⟩ => ⟨S256, .f32⟩
  | .hbm, ⟨113, _⟩ => ⟨S256x1, .f32⟩
  | .hbm, ⟨114, _⟩ => ⟨S1x10, .f32⟩
  | .hbm, ⟨115, _⟩ => ⟨S256x10, .f32⟩
  | .local _ .vmem, ⟨0, _⟩ => ⟨S10000x7, .f32⟩
  | .local _ .vmem, ⟨1, _⟩ => ⟨S10000x7, .f32⟩
  | .local _ .vmem, ⟨2, _⟩ => ⟨S7x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S256x64, .f32⟩
  | .local _ .vmem, ⟨43, _⟩ => ⟨S256x1, .f32⟩
  | .local _ .vmem, ⟨44, _⟩ => ⟨S64x10, .f32⟩
  | .local _ .vmem, ⟨45, _⟩ => ⟨S1x10, .f32⟩
  | .local _ .vmem, ⟨46, _⟩ => ⟨S256x10, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  inb_S10000x7_S10000x7_0_0 : ∀ a, (![0, 0] : Fin 2 → Nat) a + S10000x7.size a ≤ S10000x7.size a
  h_S10000x7 : 0 < S10000x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  inb_S10000x64_S10000x64_0_0 : ∀ a, (![0, 0] : Fin 2 → Nat) a + S10000x64.size a ≤ S10000x64.size a
  h_S10000x64 : 0 < S10000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S_S256 : S_.BroadcastsInDim S256 (![] : Fin 0 → Fin S256.rank)
  shapeCasts_S256_S256x1 : S256.ShapeCasts S256x1
  shapeCasts_S10_S1x10 : S10.ShapeCasts S1x10
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S256x1_S256x64 : S256x1.Broadcasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S10000x7_S7x64_S10000x64_1_0_0_1_n_n_wf : DotDims.WF S10000x7 S7x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S100000x7.size a
  hwx0_0 : ∀ i : grid0.Coords, EltTy.bits .f32 = 32 ∨ (Rect.block (s := S100000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x1.size a ≤ S256x1.size a
  hwx6_1 : ∀ i : grid6.Coords, EltTy.bits .f32 = 32 ∨ (Rect.block (s := S256x1) S256x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x10.size a ≤ S64x10.size a
  hwx6_2 : ∀ i : grid6.Coords, EltTy.bits .f32 = 32 ∨ (Rect.block (s := S64x10) S64x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x10.size a ≤ S1x10.size a
  hwx6_3 : ∀ i : grid6.Coords, EltTy.bits .f32 = 32 ∨ (Rect.block (s := S1x10) S1x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x10.size a ≤ S256x10.size a
  hwx6_4 : ∀ i : grid6.Coords, EltTy.bits .f32 = 32 ∨ (Rect.block (s := S256x10) S256x10.size (cc6_transform_4 i) (hinb6_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S10000x7_S7x64_S10000x64_1_0_0_1_n_n : DotDims S10000x7 S7x64 S10000x64 where
  lhsContracting := [1]
  rhsContracting := [0]
  lhsNonContracting := [0]
  rhsNonContracting := [1]
  lhsBatch := []
  rhsBatch := []
  wf := dot_S10000x7_S7x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v78) S256x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v83) S256x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S64x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S1x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v85) S256x10.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x7 : Shape := ⟨2, ![100000, 7]⟩
abbrev S2x1200000 : Shape := ⟨2, ![2, 1200000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x64 : Shape := ⟨2, ![100000, 64]⟩
abbrev S1200000x64 : Shape := ⟨2, ![1200000, 64]⟩
abbrev S100000x1 : Shape := ⟨2, ![100000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 183
  | .vmem => 0
  | .smem => 0
  | _ => 0

abbrev hbmTy0_0 (i : Nat) : BufTy := match i % 128 with
  | 0 => ⟨S100000x7, .f32⟩
  | 1 => ⟨S2x1200000, .i32⟩
  | 2 => ⟨S100000, .i32⟩
  | 3 => ⟨S7x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S1x1200000, .i32⟩
  | 12 => ⟨S1200000, .i32⟩
  | 13 => ⟨S1x1200000, .i32⟩
  | 14 => ⟨S1200000, .i32⟩
  | 15 => ⟨S_, .f32⟩
  | 16 => ⟨S1200000, .f32⟩
  | 17 => ⟨S_, .f32⟩
  | 18 => ⟨S100000, .f32⟩
  | 19 => ⟨S1200000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1200000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S1200000x1, .f32⟩
  | 46 => ⟨S_, .i32⟩
  | 47 => ⟨S1200000, .i32⟩
  | 48 => ⟨S1200000, .i1⟩
  | 49 => ⟨S_, .i32⟩
  | 50 => ⟨S1200000, .i32⟩
  | 51 => ⟨S1200000, .i32⟩
  | 52 => ⟨S1200000, .i32⟩
  | 53 => ⟨S1200000x1, .i32⟩
  | 54 => ⟨S1200000x64, .f32⟩
  | 55 => ⟨S1200000x64, .f32⟩
  | 56 => ⟨S1200000x64, .f32⟩
  | 57 => ⟨S_, .f32⟩
  | 58 => ⟨S100000x64, .f32⟩
  | 59 => ⟨S1200000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000, .f32⟩
  | 91 => ⟨S1200000, .f32⟩
  | 92 => ⟨S1200000x1, .f32⟩
  | 93 => ⟨S_, .i32⟩
  | 94 => ⟨S1200000, .i32⟩
  | 95 => ⟨S1200000, .i1⟩
  | 96 => ⟨S_, .i32⟩
  | 97 => ⟨S1200000, .i32⟩
  | 98 => ⟨S1200000, .i32⟩
  | 99 => ⟨S1200000, .i32⟩
  | 100 => ⟨S1200000x1, .i32⟩
  | 101 => ⟨S1200000x64, .f32⟩
  | 102 => ⟨S1200000x64, .f32⟩
  | 103 => ⟨S1200000x64, .f32⟩
  | 104 => ⟨S_, .f32⟩
  | 105 => ⟨S100000x64, .f32⟩
  | 106 => ⟨S1200000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S_, .i32⟩
  | 121 => ⟨S1200000, .i32⟩
  | 122 => ⟨S1200000, .i1⟩
  | 123 => ⟨S_, .i32⟩
  | 124 => ⟨S1200000, .i32⟩
  | 125 => ⟨S1200000, .i32⟩
  | 126 => ⟨S1200000, .i32⟩
  | 127 => ⟨S1200000x1, .i32⟩
  | _ => ⟨S100000x7, .f32⟩

abbrev hbmTy0_1 (i : Nat) : BufTy := match i % 128 with
  | 0 => ⟨S1200000, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000, .f32⟩
  | 10 => ⟨S1200000, .f32⟩
  | 11 => ⟨S1200000x1, .f32⟩
  | 12 => ⟨S_, .i32⟩
  | 13 => ⟨S1200000, .i32⟩
  | 14 => ⟨S1200000, .i1⟩
  | 15 => ⟨S_, .i32⟩
  | 16 => ⟨S1200000, .i32⟩
  | 17 => ⟨S1200000, .i32⟩
  | 18 => ⟨S1200000, .i32⟩
  | 19 => ⟨S1200000x1, .i32⟩
  | 20 => ⟨S1200000x64, .f32⟩
  | 21 => ⟨S1200000x64, .f32⟩
  | 22 => ⟨S1200000x64, .f32⟩
  | 23 => ⟨S_, .f32⟩
  | 24 => ⟨S100000x64, .f32⟩
  | 25 => ⟨S1200000x1, .i32⟩
  | 26 => ⟨S100000x64, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S256x64, .f32⟩
  | 37 => ⟨S100000x1, .i32⟩
  | 38 => ⟨S256x64, .f32⟩
  | 39 => ⟨S_, .f32⟩
  | 40 => ⟨S100000, .f32⟩
  | 41 => ⟨S_, .f32⟩
  | 42 => ⟨S256, .f32⟩
  | 43 => ⟨S100000x1, .i32⟩
  | 44 => ⟨S256, .f32⟩
  | 45 => ⟨S_, .f32⟩
  | 46 => ⟨S256, .f32⟩
  | 47 => ⟨S256, .f32⟩
  | 48 => ⟨S256x1, .f32⟩
  | 49 => ⟨S256x64, .f32⟩
  | 50 => ⟨S256x64, .f32⟩
  | 51 => ⟨S256x10, .f32⟩
  | 52 => ⟨S1x10, .f32⟩
  | 53 => ⟨S256x10, .f32⟩
  | 54 => ⟨S256x10, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_23 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S100000_S1200000x1_S1200000_n_0_0_1_wf : ScatterDims.WF S100000 S1200000x1 S1200000 [] [0] [0] 1
  dot_S100000x7_S7x64_S100000x64_1_0_0_1_n_n_wf : DotDims.WF S100000x7 S7x64 S100000x64 [1] [0] [0] [1] [] []
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x10_S256x10_1_0_0_1_n_n_wf : DotDims.WF S256x64 S64x10 S256x10 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.KernelRun.lean ====
/-
  The idealized kernel's run with its result named.  The program's @main is twelve segments: five stretches of host
  operations and seven pipelined regions.  The buffer contents at each segment boundary are a fold from the launch
  memory (the generated frame's `W0 … W12`: a stretch applies its operations, a region replaces its arrays by what
  its write-backs leave).  The generated frame reads the argument arrays off the last boundary; here the same run is
  read once more, at the result array: every weakly fair execution terminates, nothing faults, the result array holds
  the last boundary's contents at its buffer, and the arguments are unchanged.
-/
import proofs.«175166_j22385369547130_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main over its segments, read at the result buffer and at every argument: the result array ends at
    the last segment boundary's contents, the arguments as launched. -/
theorem run : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v85 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.RunValue

end
-- ==== Proof.RegionMatmul.lean ====
import proofs.«175166_j22385369547130_2_alg».proof.Proof.Gen.KernelIdeal.Frame
import proofs.«175166_j22385369547130_2_alg».proof.Proof.Gen.KernelIdeal.Points
import proofs.«175166_j22385369547130_2_alg».proof.ReferenceIdeal
import proofs.«175166_j22385369547130_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-! # The three matrix-product regions, as products of the whole arrays

Each of these regions walks ten blocks of 10000 rows. At a block the body multiplies the block of the left operand by the
whole weight: entry (p, q) of the block product is the sum over k of the block's entry (p, k) times the weight's entry
(k, q), so it depends on row p of the block and column q of the weight only. Row p of block t is row 10000 t + p of the
array; hence the ten block products are the ten row blocks of the one product of the whole arrays, and since the blocks
cover every row, the output array ends holding that product. -/

noncomputable section

namespace Cert.KernelIdeal.RegionValue.Matmul

open Idealize.ShloMosaic Idealize.ShloMosaic.TcCoe Idealize.SL.Sem
open Cert.KernelIdeal Cert.KernelIdeal.Gen
open ValueIdx

/-! ## A plain matrix product at an entry -/

theorem hz : (![0, 0] : Fin 2 → Nat) = fun _ => 0 := funext fun a => by fin_cases a <;> rfl

/-- A plain [M,K] × [K,N] contraction, summed over its one contracted axis: entry (p, q) is the sum over k of
    the left operand at (p, k) times the right at (k, q). -/
theorem plain_sum {M K N : Nat} (D : DotDims ⟨2, ![M, K]⟩ ⟨2, ![K, N]⟩ ⟨2, ![M, N]⟩) (hD : D = DotDims.plain M K N)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- The host's matrix product of exact values, at entry (p, q): that sum. -/
theorem hostDot_apply {M K N : Nat} (D : DotDims ⟨2, ![M, K]⟩ ⟨2, ![K, N]⟩ ⟨2, ![M, N]⟩) (hD : D = DotDims.plain M K N)
    (A : FVec Ideal ⟨2, ![M, K]⟩ .f32) (B : FVec Ideal ⟨2, ![K, N]⟩ .f32) (p : Fin M) (q : Fin N) :
    Host.dotGeneral (F := Ideal) D none A B (ix2 p q) = ∑ k : Fin K, A (ix2 p k) * B (ix2 k q) := by
  simp only [Host.dotGeneral]
  rw [Ideal.dotGeneral_apply]
  exact plain_sum D hD A B p q

/-- A block's matrix product accumulated into zero, at entry (p, q): the same sum, whatever the operands' format. -/
theorem matmulZero_apply {M K N : Nat} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (p : Fin M) (q : Fin N) :
    matmul D none A B (constant ⟨2, ![M, N]⟩ .f32 0x00000000#32) (ix2 p q) = ∑ k : Fin K, A (ix2 p k) * B (ix2 k q) :=
  (Ideal.matmul_constant_zero_apply D none A B (ix2 p q)).trans (plain_sum D hD A B p q)

/-! ## Region 0: rows 10000 t … 10000 t + 9999 of the [100000,7] input times the whole [7,64] weight -/

/-- The block product at entry (p, q): the sum over k of the input block at (p, k) times the weight at (k, q);
    rounding the operands to a narrower format changes nothing at exact values. -/
theorem pay0_apply (x0 : Vec Ideal S10000x7 .f32) (x1 : Vec Ideal S7x64 .f32) (p : Fin 10000) (q : Fin 64) :
    k0_pay1 x0 x1 (ix2 p q) = ∑ k : Fin 7, x0 (ix2 p k) * x1 (ix2 k q) := by
  unfold k0_pay1
  exact (matmulZero_apply dot_S10000x7_S7x64_S10000x64_1_0_0_1_n_n rfl _ _ p q).trans
    (Finset.sum_congr rfl fun k _ => rfl)

/-- The index maps over the grid: the input and the output move down one block of rows per point, the weight stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t, entry (p, k), is the input at row 10000 t + p, column k. -/
theorem blk0_0 (V : (c : Dev nD) → (b : Ref sig .tc) → Buf (Elt Ideal) ((c : Thread nD τ).loc b)) (c : Dev nD)
    (t : Fin cfg0.N) (p : Fin 10000) (k : Fin 7) (r : Fin 100000) (hr : r.val = t.val * 10000 + p.val) :
    (iblk0 (F := Ideal) V c 0 t : Vec Ideal S10000x7 .f32) (ix2 p k)
      = (V c main_arg0 : S100000x7.Idx → Elt Ideal .f32) (ix2 r k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 7 + 1 * k.val = k.val; omega

/-- The weight block at every point is the whole weight. -/
theorem blk0_1 (V : (c : Dev nD) → (b : Ref sig .tc) → Buf (Elt Ideal) ((c : Thread nD τ).loc b)) (c : Dev nD)
    (t : Fin cfg0.N) (k : Fin 7) (q : Fin 64) :
    (iblk0 (F := Ideal) V c 1 t : Vec Ideal S7x64 .f32) (ix2 k q)
      = (V c main_arg3 : S7x64.Idx → Elt Ideal .f32) (ix2 k q) := by
  obtain ⟨-, -, e2, e3, -⟩ := idx_facts0 t
  unfold iblk0
  rw [View.read_apply]
  show V c main_arg3 _ = V c main_arg3 _
  refine congrArg (V c main_arg3) (funext fun a => Fin.ext ?_)
  match a with
  | ⟨0, _⟩ => show win0_1.index t (0 : Fin 2) * 7 + 1 * k.val = k.val; omega
  | ⟨1, _⟩ => show win0_1.index t (1 : Fin 2) * 64 + 1 * q.val = q.val; omega

/-- The output block at point t, entry (p, q), sits in the array at row 10000 t + p, column q. -/
theorem read0_2 (c : Dev nD) (G : Buf (Elt Ideal) ((c : Thread nD τ).loc main_v28))
    (t : Fin cfg0.N) (p : Fin 10000) (q : Fin 64) (r : Fin 100000) (hr : r.val = t.val * 10000 + p.val) :
    (((cfg0.win 2).blk t).view.read (Elt Ideal) G : Vec Ideal S10000x64 .f32) (ix2 p q)
      = (G : S100000x64.Idx → Elt Ideal .f32) (ix2 r q) := by
  obtain ⟨-, -, -, -, e4, e5⟩ := idx_facts0 t
  rw [View.read_apply]
  refine congrArg G (funext fun a => Fin.ext ?_)
  match a with
  | ⟨0, _⟩ => show win0_2.index t (0 : Fin 2) * 10000 + 1 * p.val = r.val; omega
  | ⟨1, _⟩ => show win0_2.index t (1 : Fin 2) * 64 + 1 * q.val = q.val; omega

/-- What point t writes back is block t of the whole product: entry (p, q) of the block product sums, over k, the
    input at row 10000 t + p, column k, times the weight at (k, q), which is entry (10000 t + p, q) of the product. -/
theorem flushed0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (Host.dotGeneral (F := Ideal) (φ₁ := .f32) (φ₂ := .f32) Cert.ReferenceIdeal.dot_S100000x7_S7x64_S100000x64_1_0_0_1_n_n none
            (V c main_arg0) (V c main_arg3)) := by
  show (cfg0.win 2).cut (grid0.coords t) ((dat0 V c).after 2 t) = _
  rw [after0_2]
  unfold out0_2
  rw [View.canon_unit_zero hz]
  simp only [View.ld_unit_zero (S := S10000x7) hz, View.ld_unit_zero (S := S7x64) hz]
  funext y
  obtain ⟨p, q, rfl⟩ : ∃ (p : Fin 10000) (q : Fin 64), y = ix2 p q := ⟨y 0, y 1, eq_ix2 y⟩
  have hN : grid0.N = 10 := N_0
  have ht : t.val < 10 := hN ▸ t.isLt
  have hr : t.val * 10000 + p.val < 100000 := by have := p.isLt; omega
  refine (pay0_apply (iblk0 V c 0 t) (iblk0 V c 1 t) p q).trans ?_
  refine Eq.trans ?_ (read0_2 c _ t p q ⟨_, hr⟩ rfl).symm
  refine Eq.trans ?_ (hostDot_apply _ rfl (V c main_arg0) (V c main_arg3) ⟨_, hr⟩ q).symm
  exact Finset.sum_congr rfl fun k _ => by rw [blk0_0 V c t p k ⟨_, hr⟩ rfl, blk0_1 V c t k q]

/-- An index of the array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Every row r of the array lies in the block of point r / 10000, and every point writes its block back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 :=
    ⟨⟨(i 0).val / 10000, by show _ < grid0.N; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-! ## Region 2: rows 10000 t … 10000 t + 9999 of the first layer's [100000,64] output times the whole [64,64] weight -/

/-- The block product at entry (p, q): the sum over k of the layer-input block at (p, k) times the weight at (k, q);
    a reshape to the same shape and rounding to a narrower format change nothing at exact values. -/
theorem pay2_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  refine (matmulZero_apply dot_S10000x64_S64x64_S10000x64_1_0_0_1_n_n rfl _ _ p q).trans
    (Finset.sum_congr rfl fun k _ => ?_)
  show shapeCast S10000x64 x0 shapeCasts_S10000x64_S10000x64 (ix2 p k) * x1 (ix2 k q) = _
  rw [shapeCast_self]

/-- The index maps over the grid: the layer input and the output move down one block of rows per point, the weight stays. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The layer input block at point t, entry (p, k), is the layer input at row 10000 t + p, column k. -/
theorem blk2_0 (V : (c : Dev nD) → (b : Ref sig .tc) → Buf (Elt Ideal) ((c : Thread nD τ).loc b)) (c : Dev nD)
    (t : Fin cfg2.N) (p : Fin 10000) (k : Fin 64) (r : Fin 100000) (hr : r.val = t.val * 10000 + p.val) :
    (iblk2 (F := Ideal) V c 0 t : Vec Ideal S10000x64 .f32) (ix2 p k)
      = (V c main_v43 : S100000x64.Idx → Elt Ideal .f32) (ix2 r k) := by
  obtain ⟨e0, e1, -⟩ := idx_facts2 t
  unfold iblk2
  rw [View.read_apply]
  show V c main_v43 _ = V c main_v43 _
  refine congrArg (V c main_v43) (funext fun a => Fin.ext ?_)
  match a with
  | ⟨0, _⟩ => show win2_0.index t (0 : Fin 2) * 10000 + 1 * p.val = r.val; omega
  | ⟨1, _⟩ => show win2_0.index t (1 : Fin 2) * 64 + 1 * k.val = k.val; omega

/-- The weight block at every point is the whole weight. -/
theorem blk2_1 (V : (c : Dev nD) → (b : Ref sig .tc) → Buf (Elt Ideal) ((c : Thread nD τ).loc b)) (c : Dev nD)
    (t : Fin cfg2.N) (k : Fin 64) (q : Fin 64) :
    (iblk2 (F := Ideal) V c 1 t : Vec Ideal S64x64 .f32) (ix2 k q)
      = (V c main_arg5 : S64x64.Idx → Elt Ideal .f32) (ix2 k q) := by
  obtain ⟨-, -, e2, e3, -⟩ := idx_facts2 t
  unfold iblk2
  rw [View.read_apply]
  show V c main_arg5 _ = V c main_arg5 _
  refine congrArg (V c main_arg5) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- The output block at point t, entry (p, q), sits in the array at row 10000 t + p, column q. -/
theorem read2_2 (c : Dev nD) (G : Buf (Elt Ideal) ((c : Thread nD τ).loc main_v44))
    (t : Fin cfg2.N) (p : Fin 10000) (q : Fin 64) (r : Fin 100000) (hr : r.val = t.val * 10000 + p.val) :
    (((cfg2.win 2).blk t).view.read (Elt Ideal) G : Vec Ideal S10000x64 .f32) (ix2 p q)
      = (G : S100000x64.Idx → Elt Ideal .f32) (ix2 r q) := by
  obtain ⟨-, -, -, -, e4, e5⟩ := idx_facts2 t
  rw [View.read_apply]
  refine congrArg G (funext fun a => Fin.ext ?_)
  match a with
  | ⟨0, _⟩ => show win2_2.index t (0 : Fin 2) * 10000 + 1 * p.val = r.val; omega
  | ⟨1, _⟩ => show win2_2.index t (1 : Fin 2) * 64 + 1 * q.val = q.val; omega

/-- What point t writes back is block t of the whole product: entry (p, q) of the block product sums, over k, the
    layer input at row 10000 t + p, column k, times the weight at (k, q), which is entry (10000 t + p, q) of the product. -/
theorem flushed2_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal)
          (Host.dotGeneral (F := Ideal) (φ₁ := .f32) (φ₂ := .f32) Cert.ReferenceIdeal.dot_S100000x64_S64x64_S100000x64_1_0_0_1_n_n none
            (V c main_v43) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  funext y
  obtain ⟨p, q, rfl⟩ : ∃ (p : Fin 10000) (q : Fin 64), y = ix2 p q := ⟨y 0, y 1, eq_ix2 y⟩
  have hN : grid2.N = 10 := N_2
  have ht : t.val < 10 := hN ▸ t.isLt
  have hr : t.val * 10000 + p.val < 100000 := by have := p.isLt; omega
  refine (pay2_apply (iblk2 V c 0 t) (iblk2 V c 1 t) p q).trans ?_
  refine Eq.trans ?_ (read2_2 c _ t p q ⟨_, hr⟩ rfl).symm
  refine Eq.trans ?_ (hostDot_apply _ rfl (V c main_v43) (V c main_arg5) ⟨_, hr⟩ q).symm
  exact Finset.sum_congr rfl fun k _ => by rw [blk2_0 V c t p k ⟨_, hr⟩ rfl, blk2_1 V c t k q]

/-- An index of the array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Every row r of the array lies in the block of point r / 10000, and every point writes its block back. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  obtain ⟨t, ht⟩ : ∃ t : Fin cfg2.N, t.val = (i 0).val / 10000 :=
    ⟨⟨(i 0).val / 10000, by show _ < grid2.N; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-! ## Region 4: rows 10000 t … 10000 t + 9999 of the second layer's [100000,64] output times the whole [64,64] weight -/

/-- The block product at entry (p, q): the sum over k of the layer-input block at (p, k) times the weight at (k, q);
    a reshape to the same shape and rounding to a narrower format change nothing at exact values. -/
theorem pay4_apply (x0 : Vec Ideal S10000x64 .f32) (x1 : Vec Ideal S64x64 .f32) (p : Fin 10000) (q : Fin 64) :
    k4_pay1 x0 x1 (ix2 p q) = ∑ k : Fin 64, x0 (ix2 p k) * x1 (ix2 k q) := by
  unfold k4_pay1
  refine (matmulZero_apply dot_S10000x64_S64x64_S10000x64_1_0_0_1_n_n rfl _ _ p q).trans
    (Finset.sum_congr rfl fun k _ => ?_)
  show shapeCast S10000x64 x0 shapeCasts_S10000x64_S10000x64 (ix2 p k) * x1 (ix2 k q) = _
  rw [shapeCast_self]

/-- The index maps over the grid: the layer input and the output move down one block of rows per point, the weight stays. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The layer input block at point t, entry (p, k), is the layer input at row 10000 t + p, column k. -/
theorem blk4_0 (V : (c : Dev nD) → (b : Ref sig .tc) → Buf (Elt Ideal) ((c : Thread nD τ).loc b)) (c : Dev nD)
    (t : Fin cfg4.N) (p : Fin 10000) (k : Fin 64) (r : Fin 100000) (hr : r.val = t.val * 10000 + p.val) :
    (iblk4 (F := Ideal) V c 0 t : Vec Ideal S10000x64 .f32) (ix2 p k)
      = (V c main_v59 : S100000x64.Idx → Elt Ideal .f32) (ix2 r k) := by
  obtain ⟨e0, e1, -⟩ := idx_facts4 t
  unfold iblk4
  rw [View.read_apply]
  show V c main_v59 _ = V c main_v59 _
  refine congrArg (V c main_v59) (funext fun a => Fin.ext ?_)
  match a with
  | ⟨0, _⟩ => show win4_0.index t (0 : Fin 2) * 10000 + 1 * p.val = r.val; omega
  | ⟨1, _⟩ => show win4_0.index t (1 : Fin 2) * 64 + 1 * k.val = k.val; omega

/-- The weight block at every point is the whole weight. -/
theorem blk4_1 (V : (c : Dev nD) → (b : Ref sig .tc) → Buf (Elt Ideal) ((c : Thread nD τ).loc b)) (c : Dev nD)
    (t : Fin cfg4.N) (k : Fin 64) (q : Fin 64) :
    (iblk4 (F := Ideal) V c 1 t : Vec Ideal S64x64 .f32) (ix2 k q)
      = (V c main_arg7 : S64x64.Idx → Elt Ideal .f32) (ix2 k q) := by
  obtain ⟨-, -, e2, e3, -⟩ := idx_facts4 t
  unfold iblk4
  rw [View.read_apply]
  show V c main_arg7 _ = V c main_arg7 _
  refine congrArg (V c main_arg7) (funext fun a => Fin.ext ?_)
  match a with
  | ⟨0, _⟩ => show win4_1.index t (0 : Fin 2) * 64 + 1 * k.val = k.val; omega
  | ⟨1, _⟩ => show win4_1.index t (1 : Fin 2) * 64 + 1 * q.val = q.val; omega

/-- The output block at point t, entry (p, q), sits in the array at row 10000 t + p, column q. -/
theorem read4_2 (c : Dev nD) (G : Buf (Elt Ideal) ((c : Thread nD τ).loc main_v60))
    (t : Fin cfg4.N) (p : Fin 10000) (q : Fin 64) (r : Fin 100000) (hr : r.val = t.val * 10000 + p.val) :
    (((cfg4.win 2).blk t).view.read (Elt Ideal) G : Vec Ideal S10000x64 .f32) (ix2 p q)
      = (G : S100000x64.Idx → Elt Ideal .f32) (ix2 r q) := by
  obtain ⟨-, -, -, -, e4, e5⟩ := idx_facts4 t
  rw [View.read_apply]
  refine congrArg G (funext fun a => Fin.ext ?_)
  match a with
  | ⟨0, _⟩ => show win4_2.index t (0 : Fin 2) * 10000 + 1 * p.val = r.val; omega
  | ⟨1, _⟩ => show win4_2.index t (1 : Fin 2) * 64 + 1 * q.val = q.val; omega

/-- What point t writes back is block t of the whole product: entry (p, q) of the block product sums, over k, the
    layer input at row 10000 t + p, column k, times the weight at (k, q), which is entry (10000 t + p, q) of the product. -/
theorem flushed4_eq (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal)
          (Host.dotGeneral (F := Ideal) (φ₁ := .f32) (φ₂ := .f32) Cert.ReferenceIdeal.dot_S100000x64_S64x64_S100000x64_1_0_0_1_n_n none
            (V c main_v59) (V c main_arg7)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  funext y
  obtain ⟨p, q, rfl⟩ : ∃ (p : Fin 10000) (q : Fin 64), y = ix2 p q := ⟨y 0, y 1, eq_ix2 y⟩
  have hN : grid4.N = 10 := N_4
  have ht : t.val < 10 := hN ▸ t.isLt
  have hr : t.val * 10000 + p.val < 100000 := by have := p.isLt; omega
  refine (pay4_apply (iblk4 V c 0 t) (iblk4 V c 1 t) p q).trans ?_
  refine Eq.trans ?_ (read4_2 c _ t p q ⟨_, hr⟩ rfl).symm
  refine Eq.trans ?_ (hostDot_apply _ rfl (V c main_v59) (V c main_arg7) ⟨_, hr⟩ q).symm
  exact Finset.sum_congr rfl fun k _ => by rw [blk4_0 V c t p k ⟨_, hr⟩ rfl, blk4_1 V c t k q]

/-- An index of the array is in point t's block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v60).slice (win4_2.rect t)).set ↔ _
  rw [View.set_slice_whole, Rect.mem_set_unit]
  exact Iff.rfl

/-- Every row r of the array lies in the block of point r / 10000, and every point writes its block back. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  obtain ⟨t, ht⟩ : ∃ t : Fin cfg4.N, t.val = (i 0).val / 10000 :=
    ⟨⟨(i 0).val / 10000, by show _ < grid4.N; omega⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

end Cert.KernelIdeal.RegionValue.Matmul

namespace Cert.KernelIdeal.RegionValue

open Idealize.ShloMosaic Idealize.ShloMosaic.TcCoe Idealize.SL.Sem
open Cert.KernelIdeal Cert.KernelIdeal.Gen

/-- Region 0: the output array is the matrix product of the [100000,7] input with the [7,64] weight. -/
theorem arr0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x7_S7x64_S100000x64_1_0_0_1_n_n none
          (V c main_arg0) (V c main_arg3) :=
  (dat0 (F := Ideal) V c).arrAt_eq_of_cover 2 _ (fun t _ => Matmul.flushed0_eq V c t) Matmul.cover0

/-- Region 2: the output array is the matrix product of the [100000,64] input with the [64,64] weight. -/
theorem arr2 (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32) Cert.ReferenceIdeal.dot_S100000x64_S64x64_S100000x64_1_0_0_1_n_n none
          (V c main_v43) (V c main_arg5) :=
  (dat2 (F := Ideal) V c).arrAt_eq_of_cover 2 _ (fun t _ => Matmul.flushed2_eq V c t) Matmul.cover2

/-- Region 4: the same product, of the second layer's output with the third weight. -/
theorem arr4 (V : (c : Dev nD) → (b : Ref sig .tc) → Buf (Elt Ideal) ((c : Thread nD τ).loc b)) (c : Dev nD) :
    (dat4 (F := Ideal) V c).arrAt 2 cfg4.N
      = Host.dotGeneral (F := Ideal) (φ₁ := .f32) (φ₂ := .f32) Cert.ReferenceIdeal.dot_S100000x64_S64x64_S100000x64_1_0_0_1_n_n none
          (V c main_v59) (V c main_arg7) :=
  (dat4 (F := Ideal) V c).arrAt_eq_of_cover 2 _ (fun t _ => Matmul.flushed4_eq V c t) Matmul.cover4

end Cert.KernelIdeal.RegionValue

end
-- ==== Proof.RegionCombine.lean ====
import proofs.«175166_j22385369547130_2_alg».proof.Proof.Gen.KernelIdeal.Frame
import proofs.«175166_j22385369547130_2_alg».proof.ReferenceIdeal
import proofs.«175166_j22385369547130_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

/-! # The three combine regions of the graph convolution

Each combine region walks the 100000 rows of a layer in ten blocks of 10000 rows. At a block it reads the
aggregate's block, the features' block, the block of the scale column (one entry per row: the squared
inverse-root degree) and the whole bias row, and stores, at row p and column q of the block,

    aggregate (p, q) + scale p * features (p, q) + bias q,

for the first two layers followed by the maximum with zero. Entry (p, q) of the block at grid point t depends on
row 10000 t + p of the three row-blocked arrays and on entry q of the bias, and on nothing else. The ten blocks
tile the output array, so after the last point the output array is that formula at every row: the whole-array
sum of the aggregate, the scale column spread along the rows times the features, and the bias row spread down
the rows (then the maximum with the zero array), which is how the host program writes the same layer. No law of
arithmetic is used: the two sides are the same expression entry by entry. -/

noncomputable section

namespace Cert.KernelIdeal.RegionValue

open Idealize.ShloMosaic Idealize.ShloMosaic.TcCoe Idealize.SL.Sem
open Cert.KernelIdeal Cert.KernelIdeal.Gen

namespace Combine

open Idealize.ShloMosaic.ValueIdx

/-- The two zero offsets of a whole-block access, as a constant function. -/
theorem hz : (![0, 0] : Fin 2 → Nat) = fun _ => 0 := funext fun a => by fin_cases a <;> rfl

/-! ## One block's arithmetic, entry by entry -/

/-- A column holding one entry per row, spread along each row, reads the row's entry. -/
theorem spreadCol_apply (x : Vec Ideal S10000x1 .f32) (p : Fin 10000) (q : Fin 64) :
    broadcastTo S10000x64 x broadcasts_S10000x1_S10000x64 (ix2 p q) = x (ix2 p (0 : Fin 1)) := by
  refine broadcastTo_apply x _ (ix2 p q) (ix2 p (0 : Fin 1)) fun a => ?_
  match a with
  | ⟨0, _⟩ => rfl
  | ⟨1, _⟩ => rfl

/-- One row repeated down all the rows of the block reads, at column q of any row, its own entry q. -/
theorem spreadRow_apply (x : Vec Ideal S1x64 .f32) (p : Fin 10000) (q : Fin 64) :
    broadcastTo S10000x64 x broadcasts_S1x64_S10000x64 (ix2 p q) = x (ix2 (0 : Fin 1) q) := by
  refine broadcastTo_apply x _ (ix2 p q) (ix2 (0 : Fin 1) q) fun a => ?_
  match a with
  | ⟨0, _⟩ => rfl
  | ⟨1, _⟩ => rfl

/-- The last layer's block at (p, q): the aggregate there, plus the row's scale times the feature there,
    plus the bias of column q. -/
theorem plain_apply (x0 x1 : Vec Ideal S10000x64 .f32) (x2 : Vec Ideal S10000x1 .f32) (x3 : Vec Ideal S1x64 .f32)
    (p : Fin 10000) (q : Fin 64) :
    k5_pay1 x0 x2 x1 x3 (ix2 p q)
      = x0 (ix2 p q) + x2 (ix2 p (0 : Fin 1)) * x1 (ix2 p q) + x3 (ix2 (0 : Fin 1) q) := by
  unfold k5_pay1
  simp only [shapeCast_self]
  show x0 (ix2 p q) + broadcastTo S10000x64 x2 broadcasts_S10000x1_S10000x64 (ix2 p q) * x1 (ix2 p q)
      + broadcastTo S10000x64 x3 broadcasts_S1x64_S10000x64 (ix2 p q) = _
  rw [spreadCol_apply, spreadRow_apply]

/-- The first layer's block at (p, q): the same sum, then the maximum with zero. -/
theorem relu1_apply (x0 x1 : Vec Ideal S10000x64 .f32) (x2 : Vec Ideal S10000x1 .f32) (x3 : Vec Ideal S1x64 .f32)
    (p : Fin 10000) (q : Fin 64) :
    k1_pay1 x0 x2 x1 x3 (ix2 p q)
      = max (x0 (ix2 p q) + x2 (ix2 p (0 : Fin 1)) * x1 (ix2 p q) + x3 (ix2 (0 : Fin 1) q))
          (Ideal.ofBits .f32 0x00000000#32) := by
  unfold k1_pay1
  simp only [shapeCast_self]
  show max (x0 (ix2 p q) + broadcastTo S10000x64 x2 broadcasts_S10000x1_S10000x64 (ix2 p q) * x1 (ix2 p q)
      + broadcastTo S10000x64 x3 broadcasts_S1x64_S10000x64 (ix2 p q)) _ = _
  rw [spreadCol_apply, spreadRow_apply]
  rfl

/-- The second layer's block at (p, q): the same as the first layer's. -/
theorem relu3_apply (x0 x1 : Vec Ideal S10000x64 .f32) (x2 : Vec Ideal S10000x1 .f32) (x3 : Vec Ideal S1x64 .f32)
    (p : Fin 10000) (q : Fin 64) :
    k3_pay1 x0 x2 x1 x3 (ix2 p q)
      = max (x0 (ix2 p q) + x2 (ix2 p (0 : Fin 1)) * x1 (ix2 p q) + x3 (ix2 (0 : Fin 1) q))
          (Ideal.ofBits .f32 0x00000000#32) := by
  unfold k3_pay1
  simp only [shapeCast_self]
  show max (x0 (ix2 p q) + broadcastTo S10000x64 x2 broadcasts_S10000x1_S10000x64 (ix2 p q) * x1 (ix2 p q)
      + broadcastTo S10000x64 x3 broadcasts_S1x64_S10000x64 (ix2 p q)) _ = _
  rw [spreadCol_apply, spreadRow_apply]
  rfl

/-! ## The whole-array value, entry by entry -/

/-- The whole array of one layer without the maximum, at row r and column q: the aggregate there, plus the
    row's scale times the feature there, plus the bias of column q. -/
theorem layer_apply (A B : FVec Ideal Cert.ReferenceIdeal.S100000x64 .f32) (col : FVec Ideal Cert.ReferenceIdeal.S100000x1 .f32)
    (b : FVec Ideal Cert.ReferenceIdeal.S64 .f32)
    (hc : Cert.ReferenceIdeal.S100000x1.BroadcastsInDim Cert.ReferenceIdeal.S100000x64 ![0, 1])
    (hr : Cert.ReferenceIdeal.S1x64.BroadcastsInDim Cert.ReferenceIdeal.S100000x64 ![0, 1])
    (hv : Cert.ReferenceIdeal.S64.BroadcastsInDim Cert.ReferenceIdeal.S1x64 ![1])
    (r : Fin 100000) (q : Fin 64) :
    addf (addf A (mulf (broadcastInDim Cert.ReferenceIdeal.S100000x64 ![0, 1] hc col) B))
        (broadcastInDim Cert.ReferenceIdeal.S100000x64 ![0, 1] hr (broadcastInDim Cert.ReferenceIdeal.S1x64 ![1] hv b)) (ix2 r q)
      = A (ix2 r q) + col (ix2 r (0 : Fin 1)) * B (ix2 r q) + b (ix1 q) := by
  have e1 : broadcastInDim Cert.ReferenceIdeal.S100000x64 ![0, 1] hc col (ix2 r q) = col (ix2 r (0 : Fin 1)) :=
    broadcastInDim_apply ![0, 1] hc col (ix2 r q) (ix2 r (0 : Fin 1)) fun a => by
      match a with
      | ⟨0, _⟩ => rfl
      | ⟨1, _⟩ => rfl
  have e2 : broadcastInDim Cert.ReferenceIdeal.S100000x64 ![0, 1] hr (broadcastInDim Cert.ReferenceIdeal.S1x64 ![1] hv b) (ix2 r q)
      = broadcastInDim Cert.ReferenceIdeal.S1x64 ![1] hv b (ix2 (0 : Fin 1) q) :=
    broadcastInDim_apply ![0, 1] hr _ (ix2 r q) (ix2 (0 : Fin 1) q) fun a => by
      match a with
      | ⟨0, _⟩ => rfl
      | ⟨1, _⟩ => rfl
  have e3 : broadcastInDim Cert.ReferenceIdeal.S1x64 ![1] hv b (ix2 (0 : Fin 1) q) = b (ix1 q) :=
    broadcastInDim_apply ![1] hv b (ix2 (0 : Fin 1) q) (ix1 q) fun a => by
      match a with
      | ⟨0, _⟩ => rfl
  show A (ix2 r q) + broadcastInDim Cert.ReferenceIdeal.S100000x64 ![0, 1] hc col (ix2 r q) * B (ix2 r q)
      + broadcastInDim Cert.ReferenceIdeal.S100000x64 ![0, 1] hr (broadcastInDim Cert.ReferenceIdeal.S1x64 ![1] hv b) (ix2 r q) = _
  rw [e1, e2, e3]

/-- The whole array of a layer with the maximum, at row r and column q: the maximum of that sum and zero. -/
theorem layerRelu_apply (A B : FVec Ideal Cert.ReferenceIdeal.S100000x64 .f32) (col : FVec Ideal Cert.ReferenceIdeal.S100000x1 .f32)
    (b : FVec Ideal Cert.ReferenceIdeal.S64 .f32)
    (hc : Cert.ReferenceIdeal.S100000x1.BroadcastsInDim Cert.ReferenceIdeal.S100000x64 ![0, 1])
    (hr : Cert.ReferenceIdeal.S1x64.BroadcastsInDim Cert.ReferenceIdeal.S100000x64 ![0, 1])
    (hv : Cert.ReferenceIdeal.S64.BroadcastsInDim Cert.ReferenceIdeal.S1x64 ![1])
    (h0 : Cert.ReferenceIdeal.S_.BroadcastsInDim Cert.ReferenceIdeal.S100000x64 ![])
    (r : Fin 100000) (q : Fin 64) :
    maximumf
        (addf (addf A (mulf (broadcastInDim Cert.ReferenceIdeal.S100000x64 ![0, 1] hc col) B))
          (broadcastInDim Cert.ReferenceIdeal.S100000x64 ![0, 1] hr (broadcastInDim Cert.ReferenceIdeal.S1x64 ![1] hv b)))
        (broadcastInDim Cert.ReferenceIdeal.S100000x64 ![] h0 (constant (F := Ideal) Cert.ReferenceIdeal.S_ .f32 0x00000000#32))
        (ix2 r q)
      = max (A (ix2 r q) + col (ix2 r (0 : Fin 1)) * B (ix2 r q) + b (ix1 q)) (Ideal.ofBits .f32 0x00000000#32) := by
  show max (addf (addf A (mulf (broadcastInDim Cert.ReferenceIdeal.S100000x64 ![0, 1] hc col) B))
          (broadcastInDim Cert.ReferenceIdeal.S100000x64 ![0, 1] hr (broadcastInDim Cert.ReferenceIdeal.S1x64 ![1] hv b)) (ix2 r q))
        (Ideal.ofBits .f32 0x00000000#32) = _
  rw [layer_apply]

/-! ## The first layer's combination (region 1) -/

/-- Where the blocks sit: at grid point t the three row-blocked inputs and the output are at block row t, block
    column 0; the bias row is its one block at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the aggregate's block at point t is row 10000 t + p of the aggregate. -/
theorem agg1_blk (V : (c : Dev nD) → (b : Ref sig .tc) → Buf (Elt Ideal) ((c : Thread nD τ).loc b)) (c : Dev nD)
    (t : Fin cfg1.N) (p : Fin 10000) (q : Fin 64) (r : Fin 100000) (hr : r.val = t.val * 10000 + p.val) :
    iblk1 V c 0 t (ix2 p q) = V c main_v41 (ix2 r q) := by
  obtain ⟨e0, e1, -⟩ := idx1 t
  have h : ((cfg1.win 0).blk t).view.emb (ix2 p q) = (ix2 r q : S100000x64.Idx) := by
    funext a; apply Fin.ext
    match a with
    | ⟨0, _⟩ => show win1_0.index t (0 : Fin 2) * 10000 + 1 * p.val = r.val; omega
    | ⟨1, _⟩ => show win1_0.index t (1 : Fin 2) * 64 + 1 * q.val = q.val; omega
  show V c main_v41 (((cfg1.win 0).blk t).view.emb (ix2 p q)) = _
  rw [h]

/-- Row p of the features' block at point t is row 10000 t + p of the features. -/
theorem feat1_blk (V : (c : Dev nD) → (b : Ref sig .tc) → Buf (Elt Ideal) ((c : Thread nD τ).loc b)) (c : Dev nD)
    (t : Fin cfg1.N) (p : Fin 10000) (q : Fin 64) (r : Fin 100000) (hr : r.val = t.val * 10000 + p.val) :
    iblk1 V c 1 t (ix2 p q) = V c main_v28 (ix2 r q) := by
  obtain ⟨-, -, e0, e1, -⟩ := idx1 t
  have h : ((cfg1.win 1).blk t).view.emb (ix2 p q) = (ix2 r q : S100000x64.Idx) := by
    funext a; apply Fin.ext
    match a with
    | ⟨0, _⟩ => show win1_1.index t (0 : Fin 2) * 10000 + 1 * p.val = r.val; omega
    | ⟨1, _⟩ => show win1_1.index t (1 : Fin 2) * 64 + 1 * q.val = q.val; omega
  show V c main_v28 (((cfg1.win 1).blk t).view.emb (ix2 p q)) = _
  rw [h]

/-- Entry p of the scale column's block at point t is entry 10000 t + p of the column. -/
theorem col1_blk (V : (c : Dev nD) → (b : Ref sig .tc) → Buf (Elt Ideal) ((c : Thread nD τ).loc b)) (c : Dev nD)
    (t : Fin cfg1.N) (p : Fin 10000) (r : Fin 100000) (hr : r.val = t.val * 10000 + p.val) :
    iblk1 V c 2 t (ix2 p (0 : Fin 1)) = V c main_v12 (ix2 r (0 : Fin 1)) := by
  obtain ⟨-, -, -, -, e0, e1, -⟩ := idx1 t
  have h : ((cfg1.win 2).blk t).view.emb (ix2 p (0 : Fin 1)) = (ix2 r (0 : Fin 1) : S100000x1.Idx) := by
    funext a; apply Fin.ext
    match a with
    | ⟨0, _⟩ => show win1_2.index t (0 : Fin 2) * 10000 + 1 * p.val = r.val; omega
    | ⟨1, _⟩ => show win1_2.index t (1 : Fin 2) * 1 + 1 * 0 = 0; omega
  show V c main_v12 (((cfg1.win 2).blk t).view.emb (ix2 p (0 : Fin 1))) = _
  rw [h]

/-- The bias row's block is the whole row at every point: entry q is the bias of column q. -/
theorem bias1_blk (V : (c : Dev nD) → (b : Ref sig .tc) → Buf (Elt Ideal) ((c : Thread nD τ).loc b)) (c : Dev nD)
    (b : (⟨S64, .f32⟩ : BufTy).Contents (Elt Ideal)) (hb : V c main_v42 = shapeCast S1x64 b shapeCasts_S64_S1x64)
    (t : Fin cfg1.N) (q : Fin 64) :
    iblk1 V c 3 t (ix2 (0 : Fin 1) q) = b (ix1 q) := by
  obtain ⟨-, -, -, -, -, -, e0, e1, -⟩ := idx1 t
  have h : ((cfg1.win 3).blk t).view.emb (ix2 (0 : Fin 1) q) = (ix2 (0 : Fin 1) q : S1x64.Idx) := by
    funext a; apply Fin.ext
    match a with
    | ⟨0, _⟩ => show win1_3.index t (0 : Fin 2) * 1 + 1 * 0 = 0; omega
    | ⟨1, _⟩ => show win1_3.index t (1 : Fin 2) * 64 + 1 * q.val = q.val; omega
  show V c main_v42 (((cfg1.win 3).blk t).view.emb (ix2 (0 : Fin 1) q)) = _
  rw [h, hb]
  exact shapeCast_a_1a_apply b shapeCasts_S64_S1x64 (0 : Fin 1) q

/-- Row p of the output's block at point t is row 10000 t + p of the output array. -/
theorem out1_emb (t : Fin cfg1.N) (p : Fin 10000) (q : Fin 64) (r : Fin 100000) (hr : r.val = t.val * 10000 + p.val) :
    ((cfg1.win 4).blk t).view.emb (ix2 p q) = (ix2 r q : S100000x64.Idx) := by
  obtain ⟨-, -, -, -, -, -, -, -, e0, e1⟩ := idx1 t
  funext a; apply Fin.ext
  match a with
  | ⟨0, _⟩ => show win1_4.index t (0 : Fin 2) * 10000 + 1 * p.val = r.val; omega
  | ⟨1, _⟩ => show win1_4.index t (1 : Fin 2) * 64 + 1 * q.val = q.val; omega

/-- So any whole array read through the output's block at point t has, at row p of the block, its row
    10000 t + p. -/
theorem out1_read (G : FVec Ideal S100000x64 .f32)
    (t : Fin cfg1.N) (p : Fin 10000) (q : Fin 64) (r : Fin 100000) (hr : r.val = t.val * 10000 + p.val) :
    ((cfg1.win 4).blk t).view.read (Elt Ideal) G (ix2 p q) = G (ix2 r q) := by
  show G (((cfg1.win 4).blk t).view.emb (ix2 p q)) = _
  rw [out1_emb t p q r hr]

/-- What point t writes back is block t of the layer's whole-array value. -/
theorem flushed1_eq (V : (c : Dev nD) → (b : Ref sig .tc) → Buf (Elt Ideal) ((c : Thread nD τ).loc b)) (c : Dev nD)
    (b : (⟨S64, .f32⟩ : BufTy).Contents (Elt Ideal)) (hb : V c main_v42 = shapeCast S1x64 b shapeCasts_S64_S1x64)
    (t : Fin cfg1.N) :
    (dat1 (F := Ideal) V c).flushed 4 t = ((cfg1.win 4).blk t).view.read (Elt Ideal)
      (maximumf
        (addf
          (addf (V c main_v41)
            (mulf (broadcastInDim Cert.ReferenceIdeal.S100000x64 ![0, 1] Cert.ReferenceIdeal.Gen.bcast_S100000x1_S100000x64_0_1 (V c main_v12))
              (V c main_v28)))
          (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 b)))
        (broadcastInDim Cert.ReferenceIdeal.S100000x64 ![] Cert.ReferenceIdeal.Gen.bcast_S_S100000x64
          (constant (F := Ideal) Cert.ReferenceIdeal.S_ .f32 0x00000000#32))) := by
  have hN : grid1.N = 10 := N_1
  have ht : t.val < 10 := by have h : t.val < grid1.N := t.isLt; omega
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  funext y
  obtain ⟨p, q, rfl⟩ : ∃ (p : Fin 10000) (q : Fin 64), y = ix2 p q := ⟨y 0, y 1, eq_ix2 y⟩
  obtain ⟨r, hr⟩ : ∃ r : Fin 100000, r.val = t.val * 10000 + p.val := ⟨⟨t.val * 10000 + p.val, by have := p.isLt; omega⟩, rfl⟩
  refine (relu1_apply (iblk1 V c 0 t) (iblk1 V c 1 t) (iblk1 V c 2 t) (iblk1 V c 3 t) p q).trans ?_
  rw [agg1_blk V c t p q r hr, feat1_blk V c t p q r hr, col1_blk V c t p r hr, bias1_blk V c b hb t q]
  refine Eq.trans ?_ (out1_read _ t p q r hr).symm
  exact (layerRelu_apply (V c main_v41) (V c main_v28) (V c main_v12) b _ _ _ _ r q).symm

/-- An index of the output array is in point t's block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Every entry of the output array is written back: row r by the point r / 10000. -/
theorem cover1 (i : S100000x64.Idx) :
    ∃ t : Fin cfg1.N, (cfg1.win 4).flush t = true ∧ i ∈ ((cfg1.win 4).blk t).view.set := by
  have hN : grid1.N = 10 := N_1
  have h0 : (i 0).val < 100000 := (i 0).isLt
  have h1 : (i 1).val < 64 := (i 1).isLt
  obtain ⟨t, ht⟩ : ∃ t : Fin cfg1.N, t.val = (i 0).val / 10000 :=
    ⟨⟨(i 0).val / 10000, by show (i 0).val / 10000 < grid1.N; omega⟩, rfl⟩
  obtain ⟨-, -, -, -, -, -, -, -, e0, e1⟩ := idx1 t
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-! ## The second layer's combination (region 3) -/

/-- Where the blocks sit: at grid point t the three row-blocked inputs and the output are at block row t, block
    column 0; the bias row is its one block at every point. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of the aggregate's block at point t is row 10000 t + p of the aggregate. -/
theorem agg3_blk (V : (c : Dev nD) → (b : Ref sig .tc) → Buf (Elt Ideal) ((c : Thread nD τ).loc b)) (c : Dev nD)
    (t : Fin cfg3.N) (p : Fin 10000) (q : Fin 64) (r : Fin 100000) (hr : r.val = t.val * 10000 + p.val) :
    iblk3 V c 0 t (ix2 p q) = V c main_v57 (ix2 r q) := by
  obtain ⟨e0, e1, -⟩ := idx3 t
  have h : ((cfg3.win 0).blk t).view.emb (ix2 p q) = (ix2 r q : S100000x64.Idx) := by
    funext a; apply Fin.ext
    match a with
    | ⟨0, _⟩ => show win3_0.index t (0 : Fin 2) * 10000 + 1 * p.val = r.val; omega
    | ⟨1, _⟩ => show win3_0.index t (1 : Fin 2) * 64 + 1 * q.val = q.val; omega
  show V c main_v57 (((cfg3.win 0).blk t).view.emb (ix2 p q)) = _
  rw [h]

/-- Row p of the features' block at point t is row 10000 t + p of the features. -/
theorem feat3_blk (V : (c : Dev nD) → (b : Ref sig .tc) → Buf (Elt Ideal) ((c : Thread nD τ).loc b)) (c : Dev nD)
    (t : Fin cfg3.N) (p : Fin 10000) (q : Fin 64) (r : Fin 100000) (hr : r.val = t.val * 10000 + p.val) :
    iblk3 V c 1 t (ix2 p q) = V c main_v44 (ix2 r q) := by
  obtain ⟨-, -, e0, e1, -⟩ := idx3 t
  have h : ((cfg3.win 1).blk t).view.emb (ix2 p q) = (ix2 r q : S100000x64.Idx) := by
    funext a; apply Fin.ext
    match a with
    | ⟨0, _⟩ => show win3_1.index t (0 : Fin 2) * 10000 + 1 * p.val = r.val; omega
    | ⟨1, _⟩ => show win3_1.index t (1 : Fin 2) * 64 + 1 * q.val = q.val; omega
  show V c main_v44 (((cfg3.win 1).blk t).view.emb (ix2 p q)) = _
  rw [h]

/-- Entry p of the scale column's block at point t is entry 10000 t + p of the column. -/
theorem col3_blk (V : (c : Dev nD) → (b : Ref sig .tc) → Buf (Elt Ideal) ((c : Thread nD τ).loc b)) (c : Dev nD)
    (t : Fin cfg3.N) (p : Fin 10000) (r : Fin 100000) (hr : r.val = t.val * 10000 + p.val) :
    iblk3 V c 2 t (ix2 p (0 : Fin 1)) = V c main_v12 (ix2 r (0 : Fin 1)) := by
  obtain ⟨-, -, -, -, e0, e1, -⟩ := idx3 t
  have h : ((cfg3.win 2).blk t).view.emb (ix2 p (0 : Fin 1)) = (ix2 r (0 : Fin 1) : S100000x1.Idx) := by
    funext a; apply Fin.ext
    match a with
    | ⟨0, _⟩ => show win3_2.index t (0 : Fin 2) * 10000 + 1 * p.val = r.val; omega
    | ⟨1, _⟩ => show win3_2.index t (1 : Fin 2) * 1 + 1 * 0 = 0; omega
  show V c main_v12 (((cfg3.win 2).blk t).view.emb (ix2 p (0 : Fin 1))) = _
  rw [h]

/-- The bias row's block is the whole row at every point: entry q is the bias of column q. -/
theorem bias3_blk (V : (c : Dev nD) → (b : Ref sig .tc) → Buf (Elt Ideal) ((c : Thread nD τ).loc b)) (c : Dev nD)
    (b : (⟨S64, .f32⟩ : BufTy).Contents (Elt Ideal)) (hb : V c main_v58 = shapeCast S1x64 b shapeCasts_S64_S1x64)
    (t : Fin cfg3.N) (q : Fin 64) :
    iblk3 V c 3 t (ix2 (0 : Fin 1) q) = b (ix1 q) := by
  obtain ⟨-, -, -, -, -, -, e0, e1, -⟩ := idx3 t
  have h : ((cfg3.win 3).blk t).view.emb (ix2 (0 : Fin 1) q) = (ix2 (0 : Fin 1) q : S1x64.Idx) := by
    funext a; apply Fin.ext
    match a with
    | ⟨0, _⟩ => show win3_3.index t (0 : Fin 2) * 1 + 1 * 0 = 0; omega
    | ⟨1, _⟩ => show win3_3.index t (1 : Fin 2) * 64 + 1 * q.val = q.val; omega
  show V c main_v58 (((cfg3.win 3).blk t).view.emb (ix2 (0 : Fin 1) q)) = _
  rw [h, hb]
  exact shapeCast_a_1a_apply b shapeCasts_S64_S1x64 (0 : Fin 1) q

/-- Row p of the output's block at point t is row 10000 t + p of the output array. -/
theorem out3_emb (t : Fin cfg3.N) (p : Fin 10000) (q : Fin 64) (r : Fin 100000) (hr : r.val = t.val * 10000 + p.val) :
    ((cfg3.win 4).blk t).view.emb (ix2 p q) = (ix2 r q : S100000x64.Idx) := by
  obtain ⟨-, -, -, -, -, -, -, -, e0, e1⟩ := idx3 t
  funext a; apply Fin.ext
  match a with
  | ⟨0, _⟩ => show win3_4.index t (0 : Fin 2) * 10000 + 1 * p.val = r.val; omega
  | ⟨1, _⟩ => show win3_4.index t (1 : Fin 2) * 64 + 1 * q.val = q.val; omega

/-- So any whole array read through the output's block at point t has, at row p of the block, its row
    10000 t + p. -/
theorem out3_read (G : FVec Ideal S100000x64 .f32)
    (t : Fin cfg3.N) (p : Fin 10000) (q : Fin 64) (r : Fin 100000) (hr : r.val = t.val * 10000 + p.val) :
    ((cfg3.win 4).blk t).view.read (Elt Ideal) G (ix2 p q) = G (ix2 r q) := by
  show G (((cfg3.win 4).blk t).view.emb (ix2 p q)) = _
  rw [out3_emb t p q r hr]

/-- What point t writes back is block t of the layer's whole-array value. -/
theorem flushed3_eq (V : (c : Dev nD) → (b : Ref sig .tc) → Buf (Elt Ideal) ((c : Thread nD τ).loc b)) (c : Dev nD)
    (b : (⟨S64, .f32⟩ : BufTy).Contents (Elt Ideal)) (hb : V c main_v58 = shapeCast S1x64 b shapeCasts_S64_S1x64)
    (t : Fin cfg3.N) :
    (dat3 (F := Ideal) V c).flushed 4 t = ((cfg3.win 4).blk t).view.read (Elt Ideal)
      (maximumf
        (addf
          (addf (V c main_v57)
            (mulf (broadcastInDim Cert.ReferenceIdeal.S100000x64 ![0, 1] Cert.ReferenceIdeal.Gen.bcast_S100000x1_S100000x64_0_1 (V c main_v12))
              (V c main_v44)))
          (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 b)))
        (broadcastInDim Cert.ReferenceIdeal.S100000x64 ![] Cert.ReferenceIdeal.Gen.bcast_S_S100000x64
          (constant (F := Ideal) Cert.ReferenceIdeal.S_ .f32 0x00000000#32))) := by
  have hN : grid3.N = 10 := N_3
  have ht : t.val < 10 := by have h : t.val < grid3.N := t.isLt; omega
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  funext y
  obtain ⟨p, q, rfl⟩ : ∃ (p : Fin 10000) (q : Fin 64), y = ix2 p q := ⟨y 0, y 1, eq_ix2 y⟩
  obtain ⟨r, hr⟩ : ∃ r : Fin 100000, r.val = t.val * 10000 + p.val := ⟨⟨t.val * 10000 + p.val, by have := p.isLt; omega⟩, rfl⟩
  refine (relu3_apply (iblk3 V c 0 t) (iblk3 V c 1 t) (iblk3 V c 2 t) (iblk3 V c 3 t) p q).trans ?_
  rw [agg3_blk V c t p q r hr, feat3_blk V c t p q r hr, col3_blk V c t p r hr, bias3_blk V c b hb t q]
  refine Eq.trans ?_ (out3_read _ t p q r hr).symm
  exact (layerRelu_apply (V c main_v57) (V c main_v44) (V c main_v12) b _ _ _ _ r q).symm

/-- An index of the output array is in point t's block iff each coordinate is in the block's range on its axis. -/
theorem mem_blk3 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v59).slice (win3_4.rect t)).set ↔ _
  rw [View.set_slice_whole, Rect.mem_set_unit]
  exact Iff.rfl

/-- Every entry of the output array is written back: row r by the point r / 10000. -/
theorem cover3 (i : S100000x64.Idx) :
    ∃ t : Fin cfg3.N, (cfg3.win 4).flush t = true ∧ i ∈ ((cfg3.win 4).blk t).view.set := by
  have hN : grid3.N = 10 := N_3
  have h0 : (i 0).val < 100000 := (i 0).isLt
  have h1 : (i 1).val < 64 := (i 1).isLt
  obtain ⟨t, ht⟩ : ∃ t : Fin cfg3.N, t.val = (i 0).val / 10000 :=
    ⟨⟨(i 0).val / 10000, by show (i 0).val / 10000 < grid3.N; omega⟩, rfl⟩
  obtain ⟨-, -, -, -, -, -, -, -, e0, e1⟩ := idx3 t
  refine ⟨t, flush3_4 t, ?_⟩
  rw [mem_blk3]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-! ## The last layer's combination (region 5) -/

/-- Where the blocks sit: at grid point t the three row-blocked inputs and the output are at block row t, block
    column 0; the bias row is its one block at every point. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of the aggregate's block at point t is row 10000 t + p of the aggregate. -/
theorem agg5_blk (V : (c : Dev nD) → (b : Ref sig .tc) → Buf (Elt Ideal) ((c : Thread nD τ).loc b)) (c : Dev nD)
    (t : Fin cfg5.N) (p : Fin 10000) (q : Fin 64) (r : Fin 100000) (hr : r.val = t.val * 10000 + p.val) :
    iblk5 V c 0 t (ix2 p q) = V c main_v73 (ix2 r q) := by
  obtain ⟨e0, e1, -⟩ := idx5 t
  have h : ((cfg5.win 0).blk t).view.emb (ix2 p q) = (ix2 r q : S100000x64.Idx) := by
    funext a; apply Fin.ext
    match a with
    | ⟨0, _⟩ => show win5_0.index t (0 : Fin 2) * 10000 + 1 * p.val = r.val; omega
    | ⟨1, _⟩ => show win5_0.index t (1 : Fin 2) * 64 + 1 * q.val = q.val; omega
  show V c main_v73 (((cfg5.win 0).blk t).view.emb (ix2 p q)) = _
  rw [h]

/-- Row p of the features' block at point t is row 10000 t + p of the features. -/
theorem feat5_blk (V : (c : Dev nD) → (b : Ref sig .tc) → Buf (Elt Ideal) ((c : Thread nD τ).loc b)) (c : Dev nD)
    (t : Fin cfg5.N) (p : Fin 10000) (q : Fin 64) (r : Fin 100000) (hr : r.val = t.val * 10000 + p.val) :
    iblk5 V c 1 t (ix2 p q) = V c main_v60 (ix2 r q) := by
  obtain ⟨-, -, e0, e1, -⟩ := idx5 t
  have h : ((cfg5.win 1).blk t).view.emb (ix2 p q) = (ix2 r q : S100000x64.Idx) := by
    funext a; apply Fin.ext
    match a with
    | ⟨0, _⟩ => show win5_1.index t (0 : Fin 2) * 10000 + 1 * p.val = r.val; omega
    | ⟨1, _⟩ => show win5_1.index t (1 : Fin 2) * 64 + 1 * q.val = q.val; omega
  show V c main_v60 (((cfg5.win 1).blk t).view.emb (ix2 p q)) = _
  rw [h]

/-- Entry p of the scale column's block at point t is entry 10000 t + p of the column. -/
theorem col5_blk (V : (c : Dev nD) → (b : Ref sig .tc) → Buf (Elt Ideal) ((c : Thread nD τ).loc b)) (c : Dev nD)
    (t : Fin cfg5.N) (p : Fin 10000) (r : Fin 100000) (hr : r.val = t.val * 10000 + p.val) :
    iblk5 V c 2 t (ix2 p (0 : Fin 1)) = V c main_v12 (ix2 r (0 : Fin 1)) := by
  obtain ⟨-, -, -, -, e0, e1, -⟩ := idx5 t
  have h : ((cfg5.win 2).blk t).view.emb (ix2 p (0 : Fin 1)) = (ix2 r (0 : Fin 1) : S100000x1.Idx) := by
    funext a; apply Fin.ext
    match a with
    | ⟨0, _⟩ => show win5_2.index t (0 : Fin 2) * 10000 + 1 * p.val = r.val; omega
    | ⟨1, _⟩ => show win5_2.index t (1 : Fin 2) * 1 + 1 * 0 = 0; omega
  show V c main_v12 (((cfg5.win 2).blk t).view.emb (ix2 p (0 : Fin 1))) = _
  rw [h]

/-- The bias row's block is the whole row at every point: entry q is the bias of column q. -/
theorem bias5_blk (V : (c : Dev nD) → (b : Ref sig .tc) → Buf (Elt Ideal) ((c : Thread nD τ).loc b)) (c : Dev nD)
    (b : (⟨S64, .f32⟩ : BufTy).Contents (Elt Ideal)) (hb : V c main_v74 = shapeCast S1x64 b shapeCasts_S64_S1x64)
    (t : Fin cfg5.N) (q : Fin 64) :
    iblk5 V c 3 t (ix2 (0 : Fin 1) q) = b (ix1 q) := by
  obtain ⟨-, -, -, -, -, -, e0, e1, -⟩ := idx5 t
  have h : ((cfg5.win 3).blk t).view.emb (ix2 (0 : Fin 1) q) = (ix2 (0 : Fin 1) q : S1x64.Idx) := by
    funext a; apply Fin.ext
    match a with
    | ⟨0, _⟩ => show win5_3.index t (0 : Fin 2) * 1 + 1 * 0 = 0; omega
    | ⟨1, _⟩ => show win5_3.index t (1 : Fin 2) * 64 + 1 * q.val = q.val; omega
  show V c main_v74 (((cfg5.win 3).blk t).view.emb (ix2 (0 : Fin 1) q)) = _
  rw [h, hb]
  exact shapeCast_a_1a_apply b shapeCasts_S64_S1x64 (0 : Fin 1) q

/-- Row p of the output's block at point t is row 10000 t + p of the output array. -/
theorem out5_emb (t : Fin cfg5.N) (p : Fin 10000) (q : Fin 64) (r : Fin 100000) (hr : r.val = t.val * 10000 + p.val) :
    ((cfg5.win 4).blk t).view.emb (ix2 p q) = (ix2 r q : S100000x64.Idx) := by
  obtain ⟨-, -, -, -, -, -, -, -, e0, e1⟩ := idx5 t
  funext a; apply Fin.ext
  match a with
  | ⟨0, _⟩ => show win5_4.index t (0 : Fin 2) * 10000 + 1 * p.val = r.val; omega
  | ⟨1, _⟩ => show win5_4.index t (1 : Fin 2) * 64 + 1 * q.val = q.val; omega

/-- So any whole array read through the output's block at point t has, at row p of the block, its row
    10000 t + p. -/
theorem out5_read (G : FVec Ideal S100000x64 .f32)
    (t : Fin cfg5.N) (p : Fin 10000) (q : Fin 64) (r : Fin 100000) (hr : r.val = t.val * 10000 + p.val) :
    ((cfg5.win 4).blk t).view.read (Elt Ideal) G (ix2 p q) = G (ix2 r q) := by
  show G (((cfg5.win 4).blk t).view.emb (ix2 p q)) = _
  rw [out5_emb t p q r hr]

/-- What point t writes back is block t of the layer's whole-array value. -/
theorem flushed5_eq (V : (c : Dev nD) → (b : Ref sig .tc) → Buf (Elt Ideal) ((c : Thread nD τ).loc b)) (c : Dev nD)
    (b : (⟨S64, .f32⟩ : BufTy).Contents (Elt Ideal)) (hb : V c main_v74 = shapeCast S1x64 b shapeCasts_S64_S1x64)
    (t : Fin cfg5.N) :
    (dat5 (F := Ideal) V c).flushed 4 t = ((cfg5.win 4).blk t).view.read (Elt Ideal)
      (addf (F := Ideal) (φ := .f32)
        (addf (V c main_v73)
          (mulf (broadcastInDim Cert.ReferenceIdeal.S100000x64 ![0, 1] Cert.ReferenceIdeal.Gen.bcast_S100000x1_S100000x64_0_1 (V c main_v12))
            (V c main_v60)))
        (broadcastInDim Cert.ReferenceIdeal.S100000x64 ![0, 1] Cert.ReferenceIdeal.Gen.bcast_S1x64_S100000x64_0_1
          (broadcastInDim Cert.ReferenceIdeal.S1x64 ![1] Cert.ReferenceIdeal.Gen.bcast_S64_S1x64_1 b))) := by
  have hN : grid5.N = 10 := N_5
  have ht : t.val < 10 := by have h : t.val < grid5.N := t.isLt; omega
  show (cfg5.win 4).cut (grid5.coords t) ((dat5 V c).after 4 t) = _
  rw [after5_4]
  unfold out5_4
  rw [View.canon_unit_zero hz]
  simp only [View.ld_unit_zero (S := S10000x64) hz, View.ld_unit_zero (S := S10000x1) hz, View.ld_unit_zero (S := S1x64) hz]
  funext y
  obtain ⟨p, q, rfl⟩ : ∃ (p : Fin 10000) (q : Fin 64), y = ix2 p q := ⟨y 0, y 1, eq_ix2 y⟩
  obtain ⟨r, hr⟩ : ∃ r : Fin 100000, r.val = t.val * 10000 + p.val := ⟨⟨t.val * 10000 + p.val, by have := p.isLt; omega⟩, rfl⟩
  refine (plain_apply (iblk5 V c 0 t) (iblk5 V c 1 t) (iblk5 V c 2 t) (iblk5 V c 3 t) p q).trans ?_
  rw [agg5_blk V c t p q r hr, feat5_blk V c t p q r hr, col5_blk V c t p r hr, bias5_blk V c b hb t q]
  refine Eq.trans ?_ (out5_read _ t p q r hr).symm
  exact (layer_apply (V c main_v73) (V c main_v60) (V c main_v12) b _ _ _ r q).symm

/-- An index of the output array is in point t's block iff each coordinate is in the block's range on its axis. -/
theorem mem_blk5 (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v75).slice (win5_4.rect t)).set ↔ _
  rw [View.set_slice_whole, Rect.mem_set_unit]
  exact Iff.rfl

/-- Every entry of the output array is written back: row r by the point r / 10000. -/
theorem cover5 (i : S100000x64.Idx) :
    ∃ t : Fin cfg5.N, (cfg5.win 4).flush t = true ∧ i ∈ ((cfg5.win 4).blk t).view.set := by
  have hN : grid5.N = 10 := N_5
  have h0 : (i 0).val < 100000 := (i 0).isLt
  have h1 : (i 1).val < 64 := (i 1).isLt
  obtain ⟨t, ht⟩ : ∃ t : Fin cfg5.N, t.val = (i 0).val / 10000 :=
    ⟨⟨(i 0).val / 10000, by show (i 0).val / 10000 < grid5.N; omega⟩, rfl⟩
  obtain ⟨-, -, -, -, -, -, -, -, e0, e1⟩ := idx5 t
  refine ⟨t, flush5_4 t, ?_⟩
  rw [mem_blk5]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

end Combine

/-- Region 1: aggregate + (squared inverse-root degree, a column) * features + bias row, then the maximum with zero. -/
theorem arr1 (V : (c : Dev nD) → (b : Ref sig .tc) → Buf (Elt Ideal) ((c : Thread nD τ).loc b)) (c : Dev nD) (b : (⟨S64, .f32⟩ : BufTy).Contents (Elt Ideal))
    (hb : V c main_v42 = shapeCast S1x64 b shapeCasts_S64_S1x64) :
    (dat1 (F := Ideal) V c).arrAt 4 cfg1.N
      = maximumf
          (addf
            (addf (V c main_v41)
              (mulf (broadcastInDim Cert.ReferenceIdeal.S100000x64 ![0, 1] Cert.ReferenceIdeal.Gen.bcast_S100000x1_S100000x64_0_1 (V c main_v12))
                (V c main_v28)))
            (broadcastInDim Cert.ReferenceIdeal.S100000x64 ![0, 1] Cert.ReferenceIdeal.Gen.bcast_S1x64_S100000x64_0_1
              (broadcastInDim Cert.ReferenceIdeal.S1x64 ![1] Cert.ReferenceIdeal.Gen.bcast_S64_S1x64_1 b)))
          (broadcastInDim Cert.ReferenceIdeal.S100000x64 ![] Cert.ReferenceIdeal.Gen.bcast_S_S100000x64
            (constant (F := Ideal) Cert.ReferenceIdeal.S_ .f32 0x00000000#32)) := by
  exact (dat1 (F := Ideal) V c).arrAt_eq_of_cover 4 _ (fun t _ => Combine.flushed1_eq V c b hb t) Combine.cover1

/-- Region 3: the same, one layer later. -/
theorem arr3 (V : (c : Dev nD) → (b : Ref sig .tc) → Buf (Elt Ideal) ((c : Thread nD τ).loc b)) (c : Dev nD) (b : (⟨S64, .f32⟩ : BufTy).Contents (Elt Ideal))
    (hb : V c main_v58 = shapeCast S1x64 b shapeCasts_S64_S1x64) :
    (dat3 (F := Ideal) V c).arrAt 4 cfg3.N
      = maximumf
          (addf
            (addf (V c main_v57)
              (mulf (broadcastInDim Cert.ReferenceIdeal.S100000x64 ![0, 1] Cert.ReferenceIdeal.Gen.bcast_S100000x1_S100000x64_0_1 (V c main_v12))
                (V c main_v44)))
            (broadcastInDim Cert.ReferenceIdeal.S100000x64 ![0, 1] Cert.ReferenceIdeal.Gen.bcast_S1x64_S100000x64_0_1
              (broadcastInDim Cert.ReferenceIdeal.S1x64 ![1] Cert.ReferenceIdeal.Gen.bcast_S64_S1x64_1 b)))
          (broadcastInDim Cert.ReferenceIdeal.S100000x64 ![] Cert.ReferenceIdeal.Gen.bcast_S_S100000x64
            (constant (F := Ideal) Cert.ReferenceIdeal.S_ .f32 0x00000000#32)) := by
  exact (dat3 (F := Ideal) V c).arrAt_eq_of_cover 4 _ (fun t _ => Combine.flushed3_eq V c b hb t) Combine.cover3

/-- Region 5: the last layer, with no maximum. -/
theorem arr5 (V : (c : Dev nD) → (b : Ref sig .tc) → Buf (Elt Ideal) ((c : Thread nD τ).loc b)) (c : Dev nD) (b : (⟨S64, .f32⟩ : BufTy).Contents (Elt Ideal))
    (hb : V c main_v74 = shapeCast S1x64 b shapeCasts_S64_S1x64) :
    (dat5 (F := Ideal) V c).arrAt 4 cfg5.N
      = addf (F := Ideal) (φ := .f32)
          (addf (V c main_v73)
            (mulf (broadcastInDim Cert.ReferenceIdeal.S100000x64 ![0, 1] Cert.ReferenceIdeal.Gen.bcast_S100000x1_S100000x64_0_1 (V c main_v12))
              (V c main_v60)))
          (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 b)) := by
  exact (dat5 (F := Ideal) V c).arrAt_eq_of_cover 4 _ (fun t _ => Combine.flushed5_eq V c b hb t) Combine.cover5

end Cert.KernelIdeal.RegionValue

end
-- ==== Proof.RegionHead.lean ====
import proofs.«175166_j22385369547130_2_alg».proof.Proof.Gen.KernelIdeal.Frame
import proofs.«175166_j22385369547130_2_alg».proof.ReferenceIdeal
import proofs.«175166_j22385369547130_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.TcCoe Idealize.SL.Sem
open Cert.KernelIdeal Cert.KernelIdeal.Gen

/-! # The pooling-and-linear-head region, as one function of the arrays it is entered from

The region has one grid point and every window's block is its whole array. Its body divides the [256,64] per-graph
sums, row by row, by the larger of the row's count and one, multiplies the quotient by the [64,10] weight and adds the
[10] bias to every row. Over the extended reals the changes of format are the identity, and a matrix product
accumulated into zero is the host's product: the sum over the contracted index of the products. So entry (p, q) of the
output array is the sum over k of (sum (p, k) / max (count p) 1) * weight (k, q), plus bias q, which is what the host
operations on the right-hand side of `arr6` compute. -/

namespace Head

open Idealize.ShloMosaic.ValueIdx

/-! ## The contraction -/

/-- The two programs' dimension numbers of the [256,64] by [64,10] product are one record: contract axis 1 of the
    left operand with axis 0 of the right, no batch axis. -/
theorem dot_eq : Cert.ReferenceIdeal.dot_S256x64_S64x10_S256x10_1_0_0_1_n_n
    = Cert.KernelIdeal.dot_S256x64_S64x10_S256x10_1_0_0_1_n_n := rfl

/-- Over the extended reals a matrix product accumulated into the zero array is the host's product of the same
    dimension numbers, whatever formats the operands are held in, once the operands agree entry by entry: both are
    the sum over the contracted index of the products. -/
theorem matmul_zero_eq_dotGeneral {sl sr so : Shape} {φ₁ φ₂ ψ₁ ψ₂ : FTy} (D : DotDims sl sr so)
    (prec : Option ContractPrecision) (L : FVec Ideal sl φ₁) (R : FVec Ideal sr φ₂) (L' : FVec Ideal sl ψ₁)
    (R' : FVec Ideal sr ψ₂) (hL : ∀ j, (L j : EReal) = L' j) (hR : ∀ j, (R j : EReal) = R' j) :
    matmul D prec L R (constant so .f32 0x00000000#32) = Host.dotGeneral (F := Ideal) D prec L' R' := by
  funext i
  refine (Ideal.matmul_constant_zero_apply D prec L R i).trans ?_
  refine Eq.trans ?_ (Ideal.dotGeneral_apply D prec .single L' R' i).symm
  exact Finset.sum_congr rfl fun k _ => by rw [hL, hR]

/-! ## The two reshaped rows -/

/-- The counts as a [256,1] column: entry (p, 0) is count p (row-major position p on both sides). -/
theorem cnt_col (cnt : FVec Ideal S256 .f32) (p : Fin 256) (z : Fin 1) :
    shapeCast S256x1 cnt shapeCasts_S256_S256x1 (ix2 p z) = cnt (ix1 p) := by
  refine shapeCast_apply cnt shapeCasts_S256_S256x1 (ix2 p z) (ix1 p) ?_
  rw [Shape.rowMajor_val_one, Shape.rowMajor_val_two]
  show p.val = p.val * 1 + z.val
  have := z.isLt
  omega

/-- The bias as a [1,10] row: entry (0, q) is bias q. -/
theorem bias_row (lb : FVec Ideal S10 .f32) (z : Fin 1) (q : Fin 10) :
    shapeCast S1x10 lb shapeCasts_S10_S1x10 (ix2 z q) = lb (ix1 q) := by
  refine shapeCast_apply lb shapeCasts_S10_S1x10 (ix2 z q) (ix1 q) ?_
  rw [Shape.rowMajor_val_one, Shape.rowMajor_val_two]
  show q.val = z.val * 10 + q.val
  have := z.isLt
  omega

/-! ## The left operand, entry by entry -/

/-- The body's left operand at (p, k): sum (p, k) divided by the larger of count p and one. The quotient's change of
    format is the identity on extended reals; the column of maxima is read at (p, 0). -/
theorem lhs_body (x0 : FVec Ideal S256x64 .f32) (cnt : FVec Ideal S256 .f32) (p : Fin 256) (k : Fin 64) :
    ((truncf .bf16 (divf (shapeCast S256x64 x0 shapeCasts_S256x64_S256x64)
        (broadcastTo S256x64
          (maximumf (shapeCast S256x1 (shapeCast S256x1 cnt shapeCasts_S256_S256x1) shapeCasts_S256x1_S256x1)
            (broadcast S256x1 (Scalar.ofBits (F := Ideal) .f32 0x3F800000#32)))
          broadcasts_S256x1_S256x64)) bitsLt_bf16_f32 : FVec Ideal S256x64 .bf16) (ix2 p k) : EReal)
      = Ideal.div (x0 (ix2 p k)) (max (cnt (ix1 p)) (Ideal.ofBits .f32 0x3F800000#32)) := by
  rw [shapeCast_self, shapeCast_self]
  show Ideal.div (x0 (ix2 p k)) (broadcastTo S256x64 _ broadcasts_S256x1_S256x64 (ix2 p k)) = _
  refine congrArg (Ideal.div (x0 (ix2 p k))) ?_
  refine (broadcastTo_apply _ broadcasts_S256x1_S256x64 (ix2 p k) (ix2 p (0 : Fin 1)) ?_).trans ?_
  · intro a
    match a with
    | ⟨0, _⟩ => show p.val = if (256 : Nat) = 1 then 0 else p.val; rw [if_neg (by decide)]
    | ⟨1, _⟩ => show 0 = if (1 : Nat) = 1 then 0 else k.val; rw [if_pos rfl]
  · show max (shapeCast S256x1 cnt shapeCasts_S256_S256x1 (ix2 p (0 : Fin 1))) (Ideal.ofBits .f32 0x3F800000#32) = _
    rw [cnt_col]

/-- The reference's left operand at (p, k): the same quotient, the count reaching (p, k) through two broadcasts. -/
theorem lhs_ref (x0 : FVec Ideal S256x64 .f32) (cnt : FVec Ideal S256 .f32) (p : Fin 256) (k : Fin 64) :
    (Host.divf (F := Ideal) x0
        (broadcastInDim Cert.ReferenceIdeal.S256x64 ![0, 1] Cert.ReferenceIdeal.Gen.bcast_S256x1_S256x64_0_1
          (broadcastInDim Cert.ReferenceIdeal.S256x1 ![0] Cert.ReferenceIdeal.Gen.bcast_S256_S256x1_0
            (maximumf cnt
              (broadcastInDim Cert.ReferenceIdeal.S256 ![] Cert.ReferenceIdeal.Gen.bcast_S_S256
                (constant (F := Ideal) Cert.ReferenceIdeal.S_ .f32 0x3F800000#32))))) (ix2 p k) : EReal)
      = Ideal.div (x0 (ix2 p k)) (max (cnt (ix1 p)) (Ideal.ofBits .f32 0x3F800000#32)) := by
  show Ideal.div (x0 (ix2 p k)) (broadcastInDim (s := Cert.ReferenceIdeal.S256x1) Cert.ReferenceIdeal.S256x64 ![0, 1] _ _ (ix2 p k)) = _
  refine congrArg (Ideal.div (x0 (ix2 p k))) ?_
  refine (broadcastInDim_apply _ Cert.ReferenceIdeal.Gen.bcast_S256x1_S256x64_0_1 _ (ix2 p k) (ix2 p (0 : Fin 1)) ?_).trans ?_
  · intro a
    match a with
    | ⟨0, _⟩ => show p.val = if (256 : Nat) = 1 then 0 else p.val; rw [if_neg (by decide)]
    | ⟨1, _⟩ => show 0 = if (1 : Nat) = 1 then 0 else k.val; rw [if_pos rfl]
  refine (broadcastInDim_apply _ Cert.ReferenceIdeal.Gen.bcast_S256_S256x1_0 _ (ix2 p (0 : Fin 1)) (ix1 p) ?_).trans ?_
  · intro a
    match a with
    | ⟨0, _⟩ => show p.val = if (256 : Nat) = 1 then 0 else p.val; rw [if_neg (by decide)]
  show max (cnt (ix1 p)) (broadcastInDim (s := Cert.ReferenceIdeal.S_) Cert.ReferenceIdeal.S256 ![] _ _ (ix1 p)) = _
  refine congrArg (max (cnt (ix1 p))) ?_
  exact broadcastInDim_apply _ Cert.ReferenceIdeal.Gen.bcast_S_S256 _ (ix1 p) ix0 (fun a => a.elim0)

/-! ## The bias, entry by entry -/

/-- The body's bias term at (p, q): bias q, the [1,10] row read at (0, q). -/
theorem bias_body (lb : FVec Ideal S10 .f32) (p : Fin 256) (q : Fin 10) :
    broadcastTo S256x10 (shapeCast S1x10 (shapeCast S1x10 lb shapeCasts_S10_S1x10) shapeCasts_S1x10_S1x10)
        broadcasts_S1x10_S256x10 (ix2 p q)
      = lb (ix1 q) := by
  rw [shapeCast_self]
  refine (broadcastTo_apply _ broadcasts_S1x10_S256x10 (ix2 p q) (ix2 (0 : Fin 1) q) ?_).trans (bias_row lb 0 q)
  intro a
  match a with
  | ⟨0, _⟩ => show 0 = if (1 : Nat) = 1 then 0 else p.val; rw [if_pos rfl]
  | ⟨1, _⟩ => show q.val = if (10 : Nat) = 1 then 0 else q.val; rw [if_neg (by decide)]

/-- The reference's bias term at (p, q): bias q through two broadcasts. -/
theorem bias_ref (lb : FVec Ideal S10 .f32) (p : Fin 256) (q : Fin 10) :
    broadcastInDim Cert.ReferenceIdeal.S256x10 ![0, 1] Cert.ReferenceIdeal.Gen.bcast_S1x10_S256x10_0_1
        (broadcastInDim Cert.ReferenceIdeal.S1x10 ![1] Cert.ReferenceIdeal.Gen.bcast_S10_S1x10_1 lb) (ix2 p q)
      = lb (ix1 q) := by
  refine (broadcastInDim_apply _ Cert.ReferenceIdeal.Gen.bcast_S1x10_S256x10_0_1 _ (ix2 p q) (ix2 (0 : Fin 1) q) ?_).trans ?_
  · intro a
    match a with
    | ⟨0, _⟩ => show 0 = if (1 : Nat) = 1 then 0 else p.val; rw [if_pos rfl]
    | ⟨1, _⟩ => show q.val = if (10 : Nat) = 1 then 0 else q.val; rw [if_neg (by decide)]
  · refine broadcastInDim_apply _ Cert.ReferenceIdeal.Gen.bcast_S10_S1x10_1 lb (ix2 (0 : Fin 1) q) (ix1 q) ?_
    intro a
    match a with
    | ⟨0, _⟩ => show q.val = if (10 : Nat) = 1 then 0 else q.val; rw [if_neg (by decide)]

/-! ## The body's result as one function of the four arrays -/

/-- Per-graph sums divided by max(count, 1), times the weight, plus the bias row. -/
abbrev headOut (x0 : FVec Ideal S256x64 .f32) (cnt : FVec Ideal S256 .f32) (x2 : FVec Ideal S64x10 .f32)
    (lb : FVec Ideal S10 .f32) : FVec Ideal S256x10 .f32 :=
  addf
      (Host.dotGeneral (F := Ideal) Cert.ReferenceIdeal.dot_S256x64_S64x10_S256x10_1_0_0_1_n_n none
        (Host.divf (F := Ideal) x0
          (broadcastInDim Cert.ReferenceIdeal.S256x64 ![0, 1] Cert.ReferenceIdeal.Gen.bcast_S256x1_S256x64_0_1
            (broadcastInDim Cert.ReferenceIdeal.S256x1 ![0] Cert.ReferenceIdeal.Gen.bcast_S256_S256x1_0
              (maximumf cnt
                (broadcastInDim Cert.ReferenceIdeal.S256 ![] Cert.ReferenceIdeal.Gen.bcast_S_S256
                  (constant (F := Ideal) Cert.ReferenceIdeal.S_ .f32 0x3F800000#32))))))
        x2)
      (broadcastInDim Cert.ReferenceIdeal.S256x10 ![0, 1] Cert.ReferenceIdeal.Gen.bcast_S1x10_S256x10_0_1
        (broadcastInDim Cert.ReferenceIdeal.S1x10 ![1] Cert.ReferenceIdeal.Gen.bcast_S10_S1x10_1 lb))

/-- The body's stored value, of the whole arrays, is that function: the products agree because the left operands
    agree entry by entry and the right operand's change of format is the identity; the bias terms agree entry by
    entry. -/
theorem pay_eq (x0 : FVec Ideal S256x64 .f32) (cnt : FVec Ideal S256 .f32) (x2 : FVec Ideal S64x10 .f32)
    (lb : FVec Ideal S10 .f32) :
    k6_pay1 (F := Ideal) (shapeCast S256x1 cnt shapeCasts_S256_S256x1) x0 x2
        (shapeCast S1x10 lb shapeCasts_S10_S1x10)
      = headOut x0 cnt x2 lb := by
  unfold k6_pay1 headOut
  dsimp only
  refine congrArg₂ addf ?_ ?_
  · rw [dot_eq]
    refine matmul_zero_eq_dotGeneral _ none _ _ _ _ (fun j => ?_) (fun j => rfl)
    obtain ⟨p, k, rfl⟩ : ∃ (p : Fin 256) (k : Fin 64), j = ix2 p k := ⟨j 0, j 1, eq_ix2 j⟩
    exact (lhs_body x0 cnt p k).trans (lhs_ref x0 cnt p k).symm
  · funext i
    obtain ⟨p, q, rfl⟩ : ∃ (p : Fin 256) (q : Fin 10), i = ix2 p q := ⟨i 0, i 1, eq_ix2 i⟩
    exact (bias_body lb p q).trans (bias_ref lb p q).symm

/-! ## From the one block to the array -/

theorem hz : (![0, 0] : Fin 2 → Nat) = fun _ => 0 := funext fun a => by fin_cases a <;> rfl

/-- The grid has one point and every window's block index there is (0, 0): each block is its whole array. -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- The block of the sums is the whole [256,64] array. -/
theorem blk_sums (V : (c : Dev nD) → (b : Ref sig .tc) → Buf (Elt Ideal) ((c : Thread nD τ).loc b)) (c : Dev nD) (t : Fin cfg6.N) :
    iblk6 (F := Ideal) V c 0 t = V c main_v78 := by
  obtain ⟨e0, e1, -⟩ := idx_facts t
  funext y
  show V c main_v78 (((cfg6.win 0).blk t).view.emb y) = V c main_v78 y
  refine congrArg (V c main_v78) (funext fun a => Fin.ext ?_)
  match a with
  | ⟨0, _⟩ => show win6_0.index t (0 : Fin 2) * 256 + 1 * (y 0).val = (y 0).val; omega
  | ⟨1, _⟩ => show win6_0.index t (1 : Fin 2) * 64 + 1 * (y 1).val = (y 1).val; omega

/-- The block of the counts is the whole [256,1] column. -/
theorem blk_cnt (V : (c : Dev nD) → (b : Ref sig .tc) → Buf (Elt Ideal) ((c : Thread nD τ).loc b)) (c : Dev nD) (t : Fin cfg6.N) :
    iblk6 (F := Ideal) V c 1 t = V c main_v83 := by
  obtain ⟨-, -, e0, e1, -⟩ := idx_facts t
  funext y
  show V c main_v83 (((cfg6.win 1).blk t).view.emb y) = V c main_v83 y
  refine congrArg (V c main_v83) (funext fun a => Fin.ext ?_)
  match a with
  | ⟨0, _⟩ => show win6_1.index t (0 : Fin 2) * 256 + 1 * (y 0).val = (y 0).val; omega
  | ⟨1, _⟩ => show win6_1.index t (1 : Fin 2) * 1 + 1 * (y 1).val = (y 1).val; omega

/-- The block of the weight is the whole [64,10] array. -/
theorem blk_weight (V : (c : Dev nD) → (b : Ref sig .tc) → Buf (Elt Ideal) ((c : Thread nD τ).loc b)) (c : Dev nD) (t : Fin cfg6.N) :
    iblk6 (F := Ideal) V c 2 t = V c main_arg9 := by
  obtain ⟨-, -, -, -, e0, e1, -⟩ := idx_facts t
  funext y
  show V c main_arg9 (((cfg6.win 2).blk t).view.emb y) = V c main_arg9 y
  refine congrArg (V c main_arg9) (funext fun a => Fin.ext ?_)
  match a with
  | ⟨0, _⟩ => show win6_2.index t (0 : Fin 2) * 64 + 1 * (y 0).val = (y 0).val; omega
  | ⟨1, _⟩ => show win6_2.index t (1 : Fin 2) * 10 + 1 * (y 1).val = (y 1).val; omega

/-- The block of the bias is the whole [1,10] row. -/
theorem blk_bias (V : (c : Dev nD) → (b : Ref sig .tc) → Buf (Elt Ideal) ((c : Thread nD τ).loc b)) (c : Dev nD) (t : Fin cfg6.N) :
    iblk6 (F := Ideal) V c 3 t = V c main_v84 := by
  obtain ⟨-, -, -, -, -, -, e0, e1, -⟩ := idx_facts t
  funext y
  show V c main_v84 (((cfg6.win 3).blk t).view.emb y) = V c main_v84 y
  refine congrArg (V c main_v84) (funext fun a => Fin.ext ?_)
  match a with
  | ⟨0, _⟩ => show win6_3.index t (0 : Fin 2) * 1 + 1 * (y 0).val = (y 0).val; omega
  | ⟨1, _⟩ => show win6_3.index t (1 : Fin 2) * 10 + 1 * (y 1).val = (y 1).val; omega

/-- What the one point writes back is the whole of `headOut` of the four arrays as the region finds them. -/
theorem flushed_eq (V : (c : Dev nD) → (b : Ref sig .tc) → Buf (Elt Ideal) ((c : Thread nD τ).loc b)) (c : Dev nD)
    (cnt : (⟨S256, .f32⟩ : BufTy).Contents (Elt Ideal)) (hcnt : V c main_v83 = shapeCast S256x1 cnt shapeCasts_S256_S256x1)
    (lb : (⟨S10, .f32⟩ : BufTy).Contents (Elt Ideal)) (hlb : V c main_v84 = shapeCast S1x10 lb shapeCasts_S10_S1x10)
    (t : Fin cfg6.N) :
    (dat6 (F := Ideal) V c).flushed 4 t
      = ((cfg6.win 4).blk t).view.read (Elt Ideal) (headOut (V c main_v78) cnt (V c main_arg9) lb) := by
  show (cfg6.win 4).cut (grid6.coords t) ((dat6 (F := Ideal) V c).after 4 t) = _
  rw [after6_4]
  unfold out6_4
  rw [View.canon_unit_zero hz]
  simp only [View.ld_unit_zero (S := S256x64) hz, View.ld_unit_zero (S := S256x1) hz,
    View.ld_unit_zero (S := S64x10) hz, View.ld_unit_zero (S := S1x10) hz]
  rw [blk_sums, blk_cnt, blk_weight, blk_bias, hcnt, hlb]
  rw [pay_eq (V c main_v78) cnt (V c main_arg9) lb]
  obtain ⟨-, -, -, -, -, -, -, -, e0, e1⟩ := idx_facts t
  funext y
  show headOut (V c main_v78) cnt (V c main_arg9) lb y
    = headOut (V c main_v78) cnt (V c main_arg9) lb (((cfg6.win 4).blk t).view.emb y)
  refine congrArg (headOut (V c main_v78) cnt (V c main_arg9) lb) (funext fun a => Fin.ext ?_)
  match a with
  | ⟨0, _⟩ => show (y 0).val = win6_4.index t (0 : Fin 2) * 256 + 1 * (y 0).val; omega
  | ⟨1, _⟩ => show (y 1).val = win6_4.index t (1 : Fin 2) * 10 + 1 * (y 1).val; omega

/-- An index of the output array is in the point's block iff each coordinate is in the block's range. -/
theorem mem_blk (t : Fin cfg6.N) (i : S256x10.Idx) :
    i ∈ ((cfg6.win 4).blk t).view.set ↔ ∀ a : Fin 2, win6_4.index t a * S256x10.size a ≤ (i a).val
      ∧ (i a).val < win6_4.index t a * S256x10.size a + S256x10.size a := by
  show i ∈ ((View.whole main_v85).slice (win6_4.rect t)).set ↔ _
  rw [View.set_slice_whole, Rect.mem_set_unit]
  exact Iff.rfl

/-- The one block is the whole output array, so it covers every index. -/
theorem cover (i : S256x10.Idx) :
    ∃ t : Fin cfg6.N, (cfg6.win 4).flush t = true ∧ i ∈ ((cfg6.win 4).blk t).view.set := by
  refine ⟨t6_0, flush6_4 t6_0, ?_⟩
  rw [mem_blk]
  obtain ⟨-, -, -, -, -, -, -, -, e0, e1⟩ := idx_facts t6_0
  have h0 : (i 0).val < 256 := idx2_lt0 i
  have h1 : (i 1).val < 10 := idx2_lt1 i
  intro a
  match a with
  | ⟨0, _⟩ =>
    show win6_4.index t6_0 (0 : Fin 2) * 256 ≤ (i 0).val ∧ (i 0).val < win6_4.index t6_0 (0 : Fin 2) * 256 + 256
    omega
  | ⟨1, _⟩ =>
    show win6_4.index t6_0 (1 : Fin 2) * 10 ≤ (i 1).val ∧ (i 1).val < win6_4.index t6_0 (1 : Fin 2) * 10 + 10
    omega

end Head

/-- Region 6: per-graph sums divided by max(count, 1), times the [64,10] weight, plus the bias row. -/
theorem arr6 (V : (c : Dev nD) → (b : Ref sig .tc) → Buf (Elt Ideal) ((c : Thread nD τ).loc b)) (c : Dev nD)
    (cnt : (⟨S256, .f32⟩ : BufTy).Contents (Elt Ideal)) (hcnt : V c main_v83 = shapeCast S256x1 cnt shapeCasts_S256_S256x1)
    (lb : (⟨S10, .f32⟩ : BufTy).Contents (Elt Ideal)) (hlb : V c main_v84 = shapeCast S1x10 lb shapeCasts_S10_S1x10) :
    (dat6 (F := Ideal) V c).arrAt 4 cfg6.N
      = addf
          (Host.dotGeneral (F := Ideal) (φ₁ := .f32) (φ₂ := .f32) Cert.ReferenceIdeal.dot_S256x64_S64x10_S256x10_1_0_0_1_n_n none
            (Host.divf (F := Ideal) (φ := .f32) (V c main_v78)
              (broadcastInDim Cert.ReferenceIdeal.S256x64 ![0, 1] Cert.ReferenceIdeal.Gen.bcast_S256x1_S256x64_0_1
                (broadcastInDim Cert.ReferenceIdeal.S256x1 ![0] Cert.ReferenceIdeal.Gen.bcast_S256_S256x1_0
                  (maximumf cnt
                    (broadcastInDim Cert.ReferenceIdeal.S256 ![] Cert.ReferenceIdeal.Gen.bcast_S_S256
                      (constant (F := Ideal) Cert.ReferenceIdeal.S_ .f32 0x3F800000#32))))))
            (V c main_arg9))
          (broadcastInDim Cert.ReferenceIdeal.S256x10 ![0, 1] Cert.ReferenceIdeal.Gen.bcast_S1x10_S256x10_0_1
            (broadcastInDim Cert.ReferenceIdeal.S1x10 ![1] Cert.ReferenceIdeal.Gen.bcast_S10_S1x10_1 lb)) :=
  (dat6 (F := Ideal) V c).arrAt_eq_of_cover 4 (Head.headOut (V c main_v78) cnt (V c main_arg9) lb)
    (fun t _ => Head.flushed_eq V c cnt hcnt lb hlb t) Head.cover

end Cert.KernelIdeal.RegionValue

end
-- ==== Proof.Fold.lean ====
/-
  What the idealized kernel's result array holds, as the reference's own value.

  The kernel's @main alternates stretches of host operations (slices of the edge list, the degree scatter and its
  inverse square root, the per-edge normalisation, per layer a gather of rows, a scaling and a scatter-add by target
  node, and at the end the per-graph sums and counts) with seven pipelined regions (per layer a matrix product and a
  "combine" of aggregate, self-loop term and bias; at the end the mean pool and linear head).  The buffer contents at
  the segment boundaries are a fold from the launch memory.  This module reads that fold forward, boundary by boundary,
  and identifies each buffer a later segment reads with the STAGE of the jnp reference that computes the same array
  (the stage functions of the reference, one per operation, as functions of the argument arrays):

      kernel buffer                       reference stage
      source / target node of an edge     stages 1 / 3
      inverse-root degree, squared, as a column                    stage 41
      per-edge weight  dis[src] * dis[dst]                         stage 26 (which the reference recomputes as 64 and 102)
      layer 1: product, aggregate, output     stages 11, 39, 48
      layer 2: product, aggregate, output     stages 49, 77, 86
      layer 3: product, aggregate, output     stages 87, 115, 123
      per-graph sums and counts               stages 126, 130
      the result                              stage 139

  A host stretch is the same list of operations on both sides, so once its inputs are identified its outputs are the
  reference's stages by unfolding; a region's output array is the host operation the reference uses there (the three
  region modules); a buffer no segment in between writes keeps its contents.  No law of arithmetic is used: the two
  programs compute the same expression, and the kernel merely computes the per-edge weight and the squared
  inverse-root degree once where the reference recomputes them in every layer.
-/
import proofs.«175166_j22385369547130_2_alg».proof.Proof.Gen.KernelIdeal.Frame
import proofs.«175166_j22385369547130_2_alg».proof.Proof.Gen.ReferenceIdeal.Read
import proofs.«175166_j22385369547130_2_alg».proof.Proof.RegionMatmul
import proofs.«175166_j22385369547130_2_alg».proof.Proof.RegionCombine
import proofs.«175166_j22385369547130_2_alg».proof.Proof.RegionHead
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.RegionValue
open Cert.ReferenceIdeal.Read

variable (m : (ℓ : Loc nD τ sig) → Buf (Elt Ideal) ℓ) (ρ : Dev nD → PrngReg) (c : Dev nD)

/-! ## The arguments, and the reference's stages -/

-- the shorthands below mention the section's variables, which a notation cannot be checked against when it is declared
set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! ## A buffer that a segment does not write keeps its contents -/

/-- No operation of the named stretch writes the buffer: every operation's result buffer is another reference. -/
macro "not_written" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Keep
variable {m ρ c}
variable {b : Ref sig .tc} {T : Type}

/-- Through region 0 (a buffer that is none of its arrays). -/
theorem thru0 (hb : ∀ w, Pipeline.arrRef spec0 w ≠ b) {x} (h : W1 m ρ c (Proc.devRef .tc b) = x) : W2 m ρ c (Proc.devRef .tc b) = x :=
  (W2_of_ne m ρ c b hb).trans h
theorem thru1 (hb : ∀ w, Pipeline.arrRef spec1 w ≠ b) {x} (h : W3 m ρ c (Proc.devRef .tc b) = x) : W4 m ρ c (Proc.devRef .tc b) = x :=
  (W4_of_ne m ρ c b hb).trans h
theorem thru2 (hb : ∀ w, Pipeline.arrRef spec2 w ≠ b) {x} (h : W4 m ρ c (Proc.devRef .tc b) = x) : W5 m ρ c (Proc.devRef .tc b) = x :=
  (W5_of_ne m ρ c b hb).trans h
theorem thru3 (hb : ∀ w, Pipeline.arrRef spec3 w ≠ b) {x} (h : W6 m ρ c (Proc.devRef .tc b) = x) : W7 m ρ c (Proc.devRef .tc b) = x :=
  (W7_of_ne m ρ c b hb).trans h
theorem thru4 (hb : ∀ w, Pipeline.arrRef spec4 w ≠ b) {x} (h : W7 m ρ c (Proc.devRef .tc b) = x) : W8 m ρ c (Proc.devRef .tc b) = x :=
  (W8_of_ne m ρ c b hb).trans h
theorem thru5 (hb : ∀ w, Pipeline.arrRef spec5 w ≠ b) {x} (h : W9 m ρ c (Proc.devRef .tc b) = x) : W10 m ρ c (Proc.devRef .tc b) = x :=
  (W10_of_ne m ρ c b hb).trans h

/-- Through a stretch of host operations none of which writes the buffer. -/
theorem host0 (hb : ∀ op ∈ (hostOps0 : List (HloOp τ sig (Elt Ideal))), Proc.devRef .tc b ∉ op.writes) {x}
    (h : W0 m ρ c (Proc.devRef .tc b) = x) : W1 m ρ c (Proc.devRef .tc b) = x :=
  (StableHlo.after_of_forall_not_mem (b := Proc.devRef .tc b) _ _ hb).trans h
theorem host1 (hb : ∀ op ∈ (hostOps1 : List (HloOp τ sig (Elt Ideal))), Proc.devRef .tc b ∉ op.writes) {x}
    (h : W2 m ρ c (Proc.devRef .tc b) = x) : W3 m ρ c (Proc.devRef .tc b) = x :=
  (StableHlo.after_of_forall_not_mem (b := Proc.devRef .tc b) _ _ hb).trans h
theorem host3 (hb : ∀ op ∈ (hostOps3 : List (HloOp τ sig (Elt Ideal))), Proc.devRef .tc b ∉ op.writes) {x}
    (h : W5 m ρ c (Proc.devRef .tc b) = x) : W6 m ρ c (Proc.devRef .tc b) = x :=
  (StableHlo.after_of_forall_not_mem (b := Proc.devRef .tc b) _ _ hb).trans h
theorem host5 (hb : ∀ op ∈ (hostOps5 : List (HloOp τ sig (Elt Ideal))), Proc.devRef .tc b ∉ op.writes) {x}
    (h : W8 m ρ c (Proc.devRef .tc b) = x) : W9 m ρ c (Proc.devRef .tc b) = x :=
  (StableHlo.after_of_forall_not_mem (b := Proc.devRef .tc b) _ _ hb).trans h
theorem host6 (hb : ∀ op ∈ (hostOps6 : List (HloOp τ sig (Elt Ideal))), Proc.devRef .tc b ∉ op.writes) {x}
    (h : W10 m ρ c (Proc.devRef .tc b) = x) : W11 m ρ c (Proc.devRef .tc b) = x :=
  (StableHlo.after_of_forall_not_mem (b := Proc.devRef .tc b) _ _ hb).trans h

/-- The squared inverse-root degree column is an INPUT of regions 1 and 3: an input array leaves a region as it
    entered it. -/
theorem in1_v12 {x} (h : W3 m ρ c (Proc.devRef .tc main_v12) = x) : W4 m ρ c (Proc.devRef .tc main_v12) = x :=
  ((W4_arr m ρ c 2).trans (((dat1 (V3 m ρ) c).arrAt_in 2 rfl _).trans (A_eq1 (V3 m ρ) c 2))).trans h
theorem in3_v12 {x} (h : W6 m ρ c (Proc.devRef .tc main_v12) = x) : W7 m ρ c (Proc.devRef .tc main_v12) = x :=
  ((W7_arr m ρ c 2).trans (((dat3 (V6 m ρ) c).arrAt_in 2 rfl _).trans (A_eq3 (V6 m ρ) c 2))).trans h

end Keep

/-! ## The arguments where a later segment reads them -/

theorem a1_arg0 : W1 m ρ c (Proc.devRef .tc main_arg0) = x0 := host0 (by not_written hostOps0) rfl
theorem a1_arg3 : W1 m ρ c (Proc.devRef .tc main_arg3) = x3 := host0 (by not_written hostOps0) rfl
theorem a2_arg4 : W2 m ρ c (Proc.devRef .tc main_arg4) = x4 := thru0 (by decide) (host0 (by not_written hostOps0) rfl)
theorem a4_arg5 : W4 m ρ c (Proc.devRef .tc main_arg5) = x5 :=
  thru1 (by decide) (host1 (by not_written hostOps1) (thru0 (by decide) (host0 (by not_written hostOps0) rfl)))
theorem a5_arg6 : W5 m ρ c (Proc.devRef .tc main_arg6) = x6 :=
  thru2 (by decide) (thru1 (by decide) (host1 (by not_written hostOps1) (thru0 (by decide) (host0 (by not_written hostOps0) rfl))))
theorem a7_arg7 : W7 m ρ c (Proc.devRef .tc main_arg7) = x7 :=
  thru3 (by decide) (host3 (by not_written hostOps3) (thru2 (by decide) (thru1 (by decide) (host1 (by not_written hostOps1)
    (thru0 (by decide) (host0 (by not_written hostOps0) rfl))))))
theorem a8_arg8 : W8 m ρ c (Proc.devRef .tc main_arg8) = x8 :=
  thru4 (by decide) (thru3 (by decide) (host3 (by not_written hostOps3) (thru2 (by decide) (thru1 (by decide)
    (host1 (by not_written hostOps1) (thru0 (by decide) (host0 (by not_written hostOps0) rfl)))))))
theorem a10_arg2 : W10 m ρ c (Proc.devRef .tc main_arg2) = x2 :=
  thru5 (by decide) (host5 (by not_written hostOps5) (thru4 (by decide) (thru3 (by decide) (host3 (by not_written hostOps3)
    (thru2 (by decide) (thru1 (by decide) (host1 (by not_written hostOps1) (thru0 (by decide) (host0 (by not_written hostOps0) rfl)))))))))
theorem a10_arg10 : W10 m ρ c (Proc.devRef .tc main_arg10) = x10 :=
  thru5 (by decide) (host5 (by not_written hostOps5) (thru4 (by decide) (thru3 (by decide) (host3 (by not_written hostOps3)
    (thru2 (by decide) (thru1 (by decide) (host1 (by not_written hostOps1) (thru0 (by decide) (host0 (by not_written hostOps0) rfl)))))))))
theorem a11_arg9 : W11 m ρ c (Proc.devRef .tc main_arg9) = x9 :=
  host6 (by not_written hostOps6) (thru5 (by decide) (host5 (by not_written hostOps5) (thru4 (by decide) (thru3 (by decide)
    (host3 (by not_written hostOps3) (thru2 (by decide) (thru1 (by decide) (host1 (by not_written hostOps1) (thru0 (by decide)
      (host0 (by not_written hostOps0) rfl))))))))))

/-! ## After the first stretch: the edge list's rows, the degree normalisation -/

theorem s1_v1 : W1 m ρ c (Proc.devRef .tc main_v1) = val_main_v1 (F := Ideal) x1 := by
  show StableHlo.after hostOps0 (W0 m ρ c) (Proc.devRef .tc main_v1) = _
  after_results
  rfl
theorem s1_v3 : W1 m ρ c (Proc.devRef .tc main_v3) = val_main_v3 (F := Ideal) x1 := by
  show StableHlo.after hostOps0 (W0 m ρ c) (Proc.devRef .tc main_v3) = _
  after_results
  rfl
theorem s1_v12 : W1 m ρ c (Proc.devRef .tc main_v12) = val_main_v41 (F := Ideal) x1 := by
  show StableHlo.after hostOps0 (W0 m ρ c) (Proc.devRef .tc main_v12) = _
  after_results
  rfl
set_option maxHeartbeats 4000000 in
theorem s1_v27 : W1 m ρ c (Proc.devRef .tc main_v27) = val_main_v26 (F := Ideal) x1 := by
  show StableHlo.after hostOps0 (W0 m ρ c) (Proc.devRef .tc main_v27) = _
  after_results_simp
  rfl

/-! ## The edge list's rows and the per-edge weight where each layer's stretch reads them; the column where each
    combine region reads it -/

theorem k2_v1 : W2 m ρ c (Proc.devRef .tc main_v1) = val_main_v1 (F := Ideal) x1 := thru0 (by decide) (s1_v1 m ρ c)
theorem k2_v3 : W2 m ρ c (Proc.devRef .tc main_v3) = val_main_v3 (F := Ideal) x1 := thru0 (by decide) (s1_v3 m ρ c)
theorem k2_v27 : W2 m ρ c (Proc.devRef .tc main_v27) = val_main_v26 (F := Ideal) x1 := thru0 (by decide) (s1_v27 m ρ c)
theorem k5_v1 : W5 m ρ c (Proc.devRef .tc main_v1) = val_main_v1 (F := Ideal) x1 :=
  thru2 (by decide) (thru1 (by decide) (host1 (by not_written hostOps1) (k2_v1 m ρ c)))
theorem k5_v3 : W5 m ρ c (Proc.devRef .tc main_v3) = val_main_v3 (F := Ideal) x1 :=
  thru2 (by decide) (thru1 (by decide) (host1 (by not_written hostOps1) (k2_v3 m ρ c)))
theorem k5_v27 : W5 m ρ c (Proc.devRef .tc main_v27) = val_main_v26 (F := Ideal) x1 :=
  thru2 (by decide) (thru1 (by decide) (host1 (by not_written hostOps1) (k2_v27 m ρ c)))
theorem k8_v1 : W8 m ρ c (Proc.devRef .tc main_v1) = val_main_v1 (F := Ideal) x1 :=
  thru4 (by decide) (thru3 (by decide) (host3 (by not_written hostOps3) (k5_v1 m ρ c)))
theorem k8_v3 : W8 m ρ c (Proc.devRef .tc main_v3) = val_main_v3 (F := Ideal) x1 :=
  thru4 (by decide) (thru3 (by decide) (host3 (by not_written hostOps3) (k5_v3 m ρ c)))
theorem k8_v27 : W8 m ρ c (Proc.devRef .tc main_v27) = val_main_v26 (F := Ideal) x1 :=
  thru4 (by decide) (thru3 (by decide) (host3 (by not_written hostOps3) (k5_v27 m ρ c)))
theorem k3_v12 : W3 m ρ c (Proc.devRef .tc main_v12) = val_main_v41 (F := Ideal) x1 :=
  host1 (by not_written hostOps1) (thru0 (by decide) (s1_v12 m ρ c))
theorem k6_v12 : W6 m ρ c (Proc.devRef .tc main_v12) = val_main_v41 (F := Ideal) x1 :=
  host3 (by not_written hostOps3) (thru2 (by decide) (in1_v12 (k3_v12 m ρ c)))
theorem k9_v12 : W9 m ρ c (Proc.devRef .tc main_v12) = val_main_v41 (F := Ideal) x1 :=
  host5 (by not_written hostOps5) (thru4 (by decide) (in3_v12 (k6_v12 m ρ c)))

/-! ## Layer 1 -/

/-- Region 0's output: the product of the node features with the first weight. -/
theorem s2_v28 : W2 m ρ c (Proc.devRef .tc main_v28) = val_main_v11 (F := Ideal) x0 x3 := by
  refine (W2_arr m ρ c 2).trans ((arr0 (V1 m ρ) c).trans ?_)
  rw [show V1 m ρ c main_arg0 = x0 from a1_arg0 m ρ c, show V1 m ρ c main_arg3 = x3 from a1_arg3 m ρ c]
  rfl
/-- The aggregate over incoming edges. -/
theorem s3_v41 : W3 m ρ c (Proc.devRef .tc main_v41) = val_main_v39 (F := Ideal) x0 x1 x3 := by
  show StableHlo.after hostOps1 (W2 m ρ c) (Proc.devRef .tc main_v41) = _
  after_results
  rw [k2_v1 m ρ c, k2_v3 m ρ c, k2_v27 m ρ c, s2_v28 m ρ c]
  rfl
/-- The bias as a row. -/
theorem s3_v42 : W3 m ρ c (Proc.devRef .tc main_v42) = shapeCast S1x64 x4 shapeCasts_S64_S1x64 := by
  show StableHlo.after hostOps1 (W2 m ρ c) (Proc.devRef .tc main_v42) = _
  after_results
  rw [a2_arg4 m ρ c]
  rfl
theorem k3_v28 : W3 m ρ c (Proc.devRef .tc main_v28) = val_main_v11 (F := Ideal) x0 x3 :=
  host1 (by not_written hostOps1) (s2_v28 m ρ c)
/-- Region 1's output: the first layer's activations. -/
theorem s4_v43 : W4 m ρ c (Proc.devRef .tc main_v43) = val_main_v48 (F := Ideal) x0 x1 x3 x4 := by
  refine (W4_arr m ρ c 4).trans ((arr1 (V3 m ρ) c x4 (s3_v42 m ρ c)).trans ?_)
  rw [show V3 m ρ c main_v41 = _ from s3_v41 m ρ c, show V3 m ρ c main_v12 = _ from k3_v12 m ρ c,
    show V3 m ρ c main_v28 = _ from k3_v28 m ρ c]
  rfl

/-! ## Layer 2 -/

theorem s5_v44 : W5 m ρ c (Proc.devRef .tc main_v44) = val_main_v49 (F := Ideal) x0 x1 x3 x4 x5 := by
  refine (W5_arr m ρ c 2).trans ((arr2 (V4 m ρ) c).trans ?_)
  rw [show V4 m ρ c main_v43 = _ from s4_v43 m ρ c, show V4 m ρ c main_arg5 = x5 from a4_arg5 m ρ c]
  rfl
set_option maxHeartbeats 4000000 in
theorem s6_v57 : W6 m ρ c (Proc.devRef .tc main_v57) = val_main_v77 (F := Ideal) x0 x1 x3 x4 x5 := by
  show StableHlo.after hostOps3 (W5 m ρ c) (Proc.devRef .tc main_v57) = _
  after_results_simp
  rw [k5_v1 m ρ c, k5_v3 m ρ c, k5_v27 m ρ c, s5_v44 m ρ c]
  rfl
theorem s6_v58 : W6 m ρ c (Proc.devRef .tc main_v58) = shapeCast S1x64 x6 shapeCasts_S64_S1x64 := by
  show StableHlo.after hostOps3 (W5 m ρ c) (Proc.devRef .tc main_v58) = _
  after_results
  rw [a5_arg6 m ρ c]
  rfl
theorem k6_v44 : W6 m ρ c (Proc.devRef .tc main_v44) = val_main_v49 (F := Ideal) x0 x1 x3 x4 x5 :=
  host3 (by not_written hostOps3) (s5_v44 m ρ c)
theorem s7_v59 : W7 m ρ c (Proc.devRef .tc main_v59) = val_main_v86 (F := Ideal) x0 x1 x3 x4 x5 x6 := by
  refine (W7_arr m ρ c 4).trans ((arr3 (V6 m ρ) c x6 (s6_v58 m ρ c)).trans ?_)
  rw [show V6 m ρ c main_v57 = _ from s6_v57 m ρ c, show V6 m ρ c main_v12 = _ from k6_v12 m ρ c,
    show V6 m ρ c main_v44 = _ from k6_v44 m ρ c]
  rfl

/-! ## Layer 3 -/

theorem s8_v60 : W8 m ρ c (Proc.devRef .tc main_v60) = val_main_v87 (F := Ideal) x0 x1 x3 x4 x5 x6 x7 := by
  refine (W8_arr m ρ c 2).trans ((arr4 (V7 m ρ) c).trans ?_)
  rw [show V7 m ρ c main_v59 = _ from s7_v59 m ρ c, show V7 m ρ c main_arg7 = x7 from a7_arg7 m ρ c]
  rfl
set_option maxHeartbeats 4000000 in
theorem s9_v73 : W9 m ρ c (Proc.devRef .tc main_v73) = val_main_v115 (F := Ideal) x0 x1 x3 x4 x5 x6 x7 := by
  show StableHlo.after hostOps5 (W8 m ρ c) (Proc.devRef .tc main_v73) = _
  after_results_simp
  rw [k8_v1 m ρ c, k8_v3 m ρ c, k8_v27 m ρ c, s8_v60 m ρ c]
  rfl
theorem s9_v74 : W9 m ρ c (Proc.devRef .tc main_v74) = shapeCast S1x64 x8 shapeCasts_S64_S1x64 := by
  show StableHlo.after hostOps5 (W8 m ρ c) (Proc.devRef .tc main_v74) = _
  after_results
  rw [a8_arg8 m ρ c]
  rfl
theorem k9_v60 : W9 m ρ c (Proc.devRef .tc main_v60) = val_main_v87 (F := Ideal) x0 x1 x3 x4 x5 x6 x7 :=
  host5 (by not_written hostOps5) (s8_v60 m ρ c)
theorem s10_v75 : W10 m ρ c (Proc.devRef .tc main_v75) = val_main_v123 (F := Ideal) x0 x1 x3 x4 x5 x6 x7 x8 := by
  refine (W10_arr m ρ c 4).trans ((arr5 (V9 m ρ) c x8 (s9_v74 m ρ c)).trans ?_)
  rw [show V9 m ρ c main_v73 = _ from s9_v73 m ρ c, show V9 m ρ c main_v12 = _ from k9_v12 m ρ c,
    show V9 m ρ c main_v60 = _ from k9_v60 m ρ c]
  rfl

/-! ## The mean pool and the linear head -/

theorem s11_v78 : W11 m ρ c (Proc.devRef .tc main_v78) = val_main_v126 (F := Ideal) x0 x1 x2 x3 x4 x5 x6 x7 x8 := by
  show StableHlo.after hostOps6 (W10 m ρ c) (Proc.devRef .tc main_v78) = _
  after_results
  rw [s10_v75 m ρ c, a10_arg2 m ρ c]
  rfl
theorem s11_v83 : W11 m ρ c (Proc.devRef .tc main_v83) = shapeCast S256x1 (val_main_v130 (F := Ideal) x2) shapeCasts_S256_S256x1 := by
  show StableHlo.after hostOps6 (W10 m ρ c) (Proc.devRef .tc main_v83) = _
  after_results
  rw [a10_arg2 m ρ c]
  rfl
theorem s11_v84 : W11 m ρ c (Proc.devRef .tc main_v84) = shapeCast S1x10 x10 shapeCasts_S10_S1x10 := by
  show StableHlo.after hostOps6 (W10 m ρ c) (Proc.devRef .tc main_v84) = _
  after_results
  rw [a10_arg10 m ρ c]
  rfl

/-- THE RESULT: the last boundary's contents at the result buffer are the reference's last stage of the kernel's own
    arguments. -/
theorem result_eq : W12 m ρ c (Proc.devRef .tc main_v85) = val_main_v139 (F := Ideal) x0 x1 x2 x3 x4 x5 x6 x7 x8 x9 x10 := by
  refine (W12_arr m ρ c 4).trans ((arr6 (V11 m ρ) c (val_main_v130 (F := Ideal) x2) (s11_v83 m ρ c) x10 (s11_v84 m ρ c)).trans ?_)
  rw [show V11 m ρ c main_v78 = _ from s11_v78 m ρ c, show V11 m ρ c main_arg9 = x9 from a11_arg9 m ρ c]
  rfl

end Cert.KernelIdeal.Fold

end
-- ==== Proof.lean ====
/-
  The certificate of a three-layer graph convolution with mean pooling and a linear head, against its jnp reference.

  Both programs compute, for node features x, an edge list (src, dst), a graph assignment and the weights,

      deg = 1 + (number of edges into a node),   dis = deg^(-1/2),   norm(e) = dis[src e] * dis[dst e],
      layer(h, W, b) = ( sum over edges e into a node of norm(e) * (h W)[src e] ) + dis^2 * (h W) + b,
      h1 = max(layer(x, W0, b0), 0),  h2 = max(layer(h1, W1, b1), 0),  h3 = layer(h2, W2, b2),
      result = ( per-graph sum of h3 / max(per-graph node count, 1) ) lin_W + lin_b

  over the extended reals.  The kernel does the dense parts — the three products h W, the three combinations
  "aggregate + dis^2 * (h W) + b" (with the maximum in the first two) and the pooled linear head — in seven pipelined
  regions tiled over blocks of 10000 nodes, and leaves the gathers and scatter-adds to the host; the reference does
  everything on the host.  At the ideal instance a change of float format is the identity, a matrix product into a
  zero accumulator is the host's contraction, and tiling changes nothing, so the two programs are the SAME expression
  of the arguments: no arithmetic law, and so no finiteness of the inputs, is needed.  The kernel computes norm and
  dis^2 once where the reference recomputes them per layer, which the comparison sees as the same term.

  The three frames: the two kernel programs' are the generated frame certificates; the reference has no kernel and
  its frame is its generated run with the result dropped.  `preserves` is trivial: the ideal pass rewrote nothing.
  `algebraic`: the kernel's run with its result named (Proof/KernelRun.lean) ends with the result array at the last
  segment boundary's contents, which is the reference's last stage of the kernel's arguments (Proof/Fold.lean, over
  the three region modules); the reference's generated run ends at that same stage of its own arguments, and the
  arguments agree.
-/
import proofs.«175166_j22385369547130_2_alg».proof.Defs
import proofs.«175166_j22385369547130_2_alg».proof.Proof.Gen.Kernel
import proofs.«175166_j22385369547130_2_alg».proof.Proof.Gen.Kernel.Skeleton
import proofs.«175166_j22385369547130_2_alg».proof.Proof.Gen.Kernel.Launch
import proofs.«175166_j22385369547130_2_alg».proof.Proof.Gen.Kernel.Points
import proofs.«175166_j22385369547130_2_alg».proof.Proof.Gen.Kernel.Frame
import proofs.«175166_j22385369547130_2_alg».proof.Proof.Gen.KernelIdeal
import proofs.«175166_j22385369547130_2_alg».proof.Proof.Gen.KernelIdeal.Skeleton
import proofs.«175166_j22385369547130_2_alg».proof.Proof.Gen.KernelIdeal.Launch
import proofs.«175166_j22385369547130_2_alg».proof.Proof.Gen.KernelIdeal.Points
import proofs.«175166_j22385369547130_2_alg».proof.Proof.Gen.KernelIdeal.Frame
import proofs.«175166_j22385369547130_2_alg».proof.Proof.Gen.ReferenceIdeal
import proofs.«175166_j22385369547130_2_alg».proof.Proof.Gen.ReferenceIdeal.Run
import proofs.«175166_j22385369547130_2_alg».proof.Proof.Gen.ReferenceIdeal.Read
import proofs.«175166_j22385369547130_2_alg».proof.Proof.Gen.Pre_finite_inputs
import proofs.«175166_j22385369547130_2_alg».proof.Proof.KernelRun
import proofs.«175166_j22385369547130_2_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨fun c => Cert.ReferenceIdeal.Read.val_main_v139 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Fold.result_eq m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v139_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
